-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x5x128x128x128 : Shape := ⟨5, ![2, 5, 128, 128, 128]⟩
abbrev S2x128x128x128 : Shape := ⟨4, ![2, 128, 128, 128]⟩
abbrev S_ : Shape := ⟨0, ![]⟩

class Facts : Prop where
  bcast_S_S2x5x128x128x128 : S_.BroadcastsInDim S2x5x128x128x128 (![] : Fin 0 → Fin S2x5x128x128x128.rank)
  reducesTo_S2x5x128x128x128_S_d0_1_2_3_4 : S2x5x128x128x128.ReducesTo [0, 1, 2, 3, 4] S_
  h_S_ : 0 < S_.numel

variable [Facts]

def fn {F : FTy → Type} [FloatOps F] (main_arg0 : FVec F S2x5x128x128x128 .f32) (main_arg1 : IVec S2x128x128x128 32) : IVec S_ 1 :=
  let main_v0 : FVec F S2x5x128x128x128 .f32 := Host.absf main_arg0
  let main_cst : FVec F S_ .f32 := constant S_ .f32 0x7F800000#32
  let main_v1 : FVec F S2x5x128x128x128 .f32 := broadcastInDim S2x5x128x128x128 ![] bcast_S_S2x5x128x128x128 main_cst
  let main_v2 : IVec S2x5x128x128x128 1 := cmpf .olt main_v0 main_v1
  let main_c : IVec S_ 1 := constantI S_ 1 1#1
  let main_v3 : IVec S_ 1 := (fun x v => Host.reduce IntOp.andi x v reducesTo_S2x5x128x128x128_S_d0_1_2_3_4 h_S_) main_v2 main_c
  main_v3
-- ==== Kernel.lean ====
abbrev S2x5x128x128x128 : Shape := ⟨5, ![2, 5, 128, 128, 128]⟩
abbrev S2x128x128x128 : Shape := ⟨4, ![2, 128, 128, 128]⟩
abbrev S2x5x2097152 : Shape := ⟨3, ![2, 5, 2097152]⟩
abbrev S2x1x2097152 : Shape := ⟨3, ![2, 1, 2097152]⟩
abbrev S2x5x1 : Shape := ⟨3, ![2, 5, 1]⟩
abbrev S1x5x131072 : Shape := ⟨3, ![1, 5, 131072]⟩
abbrev S1x1x131072 : Shape := ⟨3, ![1, 1, 131072]⟩
abbrev S1x5x1 : Shape := ⟨3, ![1, 5, 1]⟩
abbrev S5x1 : Shape := ⟨2, ![5, 1]⟩
abbrev S5x131072 : Shape := ⟨2, ![5, 131072]⟩
abbrev S1x131072 : Shape := ⟨2, ![1, 131072]⟩
abbrev S5 : Shape := ⟨1, ![5]⟩
abbrev S2x5 : Shape := ⟨2, ![2, 5]⟩
abbrev S_ : Shape := ⟨0, ![]⟩

abbrev nBuf : Space → Nat
  | .hbm => 27
  | .vmem => 13
  | .smem => 0
  | _ => 0

abbrev bufTy : (tb : Table) → Fin (tcTables nBuf tb) → BufTy
  | .hbm, ⟨0, _⟩ => ⟨S2x5x128x128x128, .f32⟩
  | .hbm, ⟨1, _⟩ => ⟨S2x128x128x128, .i32⟩
  | .hbm, ⟨2, _⟩ => ⟨S2x5x2097152, .f32⟩
  | .hbm, ⟨3, _⟩ => ⟨S2x1x2097152, .i32⟩
  | .hbm, ⟨4, _⟩ => ⟨S2x5x1, .f32⟩
  | .hbm, ⟨5, _⟩ => ⟨S2x5x1, .f32⟩
  | .hbm, ⟨6, _⟩ => ⟨S2x5x1, .f32⟩
  | .hbm, ⟨7, _⟩ => ⟨S2x5, .f32⟩
  | .hbm, ⟨8, _⟩ => ⟨S2x5, .f32⟩
  | .hbm, ⟨9, _⟩ => ⟨S2x5, .f32⟩
  | .hbm, ⟨10, _⟩ => ⟨S2x5, .f32⟩
  | .hbm, ⟨11, _⟩ => ⟨S_, .f32⟩
  | .hbm, ⟨12, _⟩ => ⟨S2x5, .f32⟩
  | .hbm, ⟨13, _⟩ => ⟨S2x5, .f32⟩
  | .hbm, ⟨14, _⟩ => ⟨S_, .f32⟩
  | .hbm, ⟨15, _⟩ => ⟨S2x5, .f32⟩
  | .hbm, ⟨16, _⟩ => ⟨S2x5, .f32⟩
  | .hbm, ⟨17, _⟩ => ⟨S_, .f32⟩
  | .hbm, ⟨18, _⟩ => ⟨S2x5, .f32⟩
  | .hbm, ⟨19, _⟩ => ⟨S2x5, .f32⟩
  | .hbm, ⟨20, _⟩ => ⟨S2x5, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x5x131072, .f32⟩
  | .local _ .vmem, ⟨1, _⟩ => ⟨S1x5x131072, .f32⟩
  | .local _ .vmem, ⟨2, _⟩ => ⟨S1x1x131072, .i32⟩
  | .local _ .vmem, ⟨3, _⟩ => ⟨S1x1x131072, .i32⟩
  | .local _ .vmem, ⟨4, _⟩ => ⟨S1x5x1, .f32⟩
  | .local _ .vmem, ⟨5, _⟩ => ⟨S1x5x1, .f32⟩
  | .local _ .vmem, ⟨6, _⟩ => ⟨S1x5x1, .f32⟩
  | .local _ .vmem, ⟨7, _⟩ => ⟨S1x5x1, .f32⟩
  | .local _ .vmem, ⟨8, _⟩ => ⟨S1x5x1, .f32⟩
  | .local _ .vmem, ⟨9, _⟩ => ⟨S1x5x1, .f32⟩
  | .local _ .vmem, ⟨10, _⟩ => ⟨S5x1, .f32⟩
  | .local _ .vmem, ⟨11, _⟩ => ⟨S5x1, .f32⟩
  | .local _ .vmem, ⟨12, _⟩ => ⟨S5x1, .f32⟩
  | _, _ => ⟨S2x5x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_20 : BitVec 32 := 0#32
  let v36 : BitVec 1 := Scalar.cmpi .ne v35 c0_i32_20
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x5x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x5x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x5x128x128x128_S2x5x2097152 : S2x5x128x128x128.ShapeCasts S2x5x2097152
  shapeCasts_S2x128x128x128_S2x1x2097152 : S2x128x128x128.ShapeCasts S2x1x2097152
  inb_S5x1_S5x1_0_0 : ∀ a, (![0, 0] : Fin 2 → Nat) a + S5x1.size a ≤ S5x1.size a
  h_S5x1 : 0 < S5x1.numel
  shapeCasts_S5x1_S5x1 : S5x1.ShapeCasts S5x1
  inb_S1x5x131072_S1x5x131072_0_0_0 : ∀ a, (![0, 0, 0] : Fin 3 → Nat) a + S1x5x131072.size a ≤ S1x5x131072.size a
  h_S1x5x131072 : 0 < S1x5x131072.numel
  shapeCasts_S1x5x131072_S5x131072 : S1x5x131072.ShapeCasts S5x131072
  inb_S1x1x131072_S1x1x131072_0_0_0 : ∀ a, (![0, 0, 0] : Fin 3 → Nat) a + S1x1x131072.size a ≤ S1x1x131072.size a
  h_S1x1x131072 : 0 < S1x1x131072.numel
  shapeCasts_S1x1x131072_S1x131072 : S1x1x131072.ShapeCasts S1x131072
  iota_S5x131072_d0_w32 : S5x131072.Iotas .tc 32 [0]
  broadcasts_S1x131072_S5x131072 : S1x131072.Broadcasts S5x131072
  natLt_1_32 : 1 < 32
  reduces_S5x131072_S5 : S5x131072.Reduces [1] S5
  shapeCasts_S5_S5x1 : S5.ShapeCasts S5x1
  inb_S1x5x1_S1x5x1_0_0_0 : ∀ a, (![0, 0, 0] : Fin 3 → Nat) a + S1x5x1.size a ≤ S1x5x1.size a
  h_S1x5x1 : 0 < S1x5x1.numel
  shapeCasts_S1x5x1_S5x1 : S1x5x1.ShapeCasts S5x1
  shapeCasts_S5x1_S1x5x1 : S5x1.ShapeCasts S1x5x1
  shapeCasts_S2x5x1_S2x5 : S2x5x1.ShapeCasts S2x5
  bcast_S_S2x5 : S_.BroadcastsInDim S2x5 (![] : Fin 0 → Fin S2x5.rank)
  reducesTo_S2x5_S_d0_1 : S2x5.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5x131072.size a ≤ S2x5x2097152.size a
  hwx0_0 : ∀ i : grid0.Coords, EltTy.bits .f32 = 32 ∨ (Rect.block (s := S2x5x2097152) S1x5x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x131072.size a ≤ S2x1x2097152.size a
  hwx0_1 : ∀ i : grid0.Coords, EltTy.bits .i32 = 32 ∨ (Rect.block (s := S2x1x2097152) S1x1x131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x1.size a ≤ S2x5x1.size a
  hwx0_2 : ∀ i : grid0.Coords, EltTy.bits .f32 = 32 ∨ (Rect.block (s := S2x5x1) S1x5x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5x1.size a ≤ S2x5x1.size a
  hwx0_3 : ∀ i : grid0.Coords, EltTy.bits .f32 = 32 ∨ (Rect.block (s := S2x5x1) S1x5x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5x1.size a ≤ S2x5x1.size a
  hwx0_4 : ∀ i : grid0.Coords, EltTy.bits .f32 = 32 ∨ (Rect.block (s := S2x5x1) S1x5x1.size (cc0_transform_4 i) (hinb0_4 i)).WholeWords (EltTy.packing .f32)

variable [Facts₀]

abbrev win0_0 : Pipeline.Window sig grid0 :=
  Pipeline.Window.ofSpec (Memref.whole main_v0) S1x5x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x5x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x5x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x5x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x5x128x128x128 : Shape := ⟨5, ![2, 5, 128, 128, 128]⟩
abbrev S2x128x128x128 : Shape := ⟨4, ![2, 128, 128, 128]⟩
abbrev S2x5x2097152 : Shape := ⟨3, ![2, 5, 2097152]⟩
abbrev S2x2097152 : Shape := ⟨2, ![2, 2097152]⟩
abbrev S2x1x2097152 : Shape := ⟨3, ![2, 1, 2097152]⟩
abbrev S5 : Shape := ⟨1, ![5]⟩
abbrev S1x5x1 : Shape := ⟨3, ![1, 5, 1]⟩
abbrev S_ : Shape := ⟨0, ![]⟩
abbrev S2x5 : Shape := ⟨2, ![2, 5]⟩

abbrev nBuf : Space → Nat
  | .hbm => 35
  | .vmem => 0
  | .smem => 0
  | _ => 0

abbrev bufTy : (tb : Table) → Fin (tcTables nBuf tb) → BufTy
  | .hbm, ⟨0, _⟩ => ⟨S2x5x128x128x128, .f32⟩
  | .hbm, ⟨1, _⟩ => ⟨S2x128x128x128, .i32⟩
  | .hbm, ⟨2, _⟩ => ⟨S2x5x2097152, .f32⟩
  | .hbm, ⟨3, _⟩ => ⟨S2x2097152, .i32⟩
  | .hbm, ⟨4, _⟩ => ⟨S2x1x2097152, .i32⟩
  | .hbm, ⟨5, _⟩ => ⟨S5, .i32⟩
  | .hbm, ⟨6, _⟩ => ⟨S1x5x1, .i32⟩
  | .hbm, ⟨7, _⟩ => ⟨S2x5x2097152, .i32⟩
  | .hbm, ⟨8, _⟩ => ⟨S2x5x2097152, .i32⟩
  | .hbm, ⟨9, _⟩ => ⟨S2x5x2097152, .i1⟩
  | .hbm, ⟨10, _⟩ => ⟨S2x5x2097152, .f32⟩
  | .hbm, ⟨11, _⟩ => ⟨S2x5x2097152, .f32⟩
  | .hbm, ⟨12, _⟩ => ⟨S_, .f32⟩
  | .hbm, ⟨13, _⟩ => ⟨S2x5, .f32⟩
  | .hbm, ⟨14, _⟩ => ⟨S_, .f32⟩
  | .hbm, ⟨15, _⟩ => ⟨S2x5, .f32⟩
  | .hbm, ⟨16, _⟩ => ⟨S_, .f32⟩
  | .hbm, ⟨17, _⟩ => ⟨S2x5, .f32⟩
  | .hbm, ⟨18, _⟩ => ⟨S2x5, .f32⟩
  | .hbm, ⟨19, _⟩ => ⟨S_, .f32⟩
  | .hbm, ⟨20, _⟩ => ⟨S2x5, .f32⟩
  | .hbm, ⟨21, _⟩ => ⟨S2x5, .f32⟩
  | .hbm, ⟨22, _⟩ => ⟨S_, .f32⟩
  | .hbm, ⟨23, _⟩ => ⟨S2x5, .f32⟩
  | .hbm, ⟨24, _⟩ => ⟨S2x5, .f32⟩
  | .hbm, ⟨25, _⟩ => ⟨S_, .f32⟩
  | .hbm, ⟨26, _⟩ => ⟨S2x5, .f32⟩
  | .hbm, ⟨27, _⟩ => ⟨S2x5, .f32⟩
  | .hbm, ⟨28, _⟩ => ⟨S2x5, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S2x5x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  shapeCasts_S2x5x128x128x128_S2x5x2097152 : S2x5x128x128x128.ShapeCasts S2x5x2097152
  shapeCasts_S2x128x128x128_S2x2097152 : S2x128x128x128.ShapeCasts S2x2097152
  bcast_S2x2097152_S2x1x2097152_0_2 : S2x2097152.BroadcastsInDim S2x1x2097152 (![0, 2] : Fin 2 → Fin S2x1x2097152.rank)
  bcast_S5_S1x5x1_1 : S5.BroadcastsInDim S1x5x1 (![1] : Fin 1 → Fin S1x5x1.rank)
  bcast_S2x1x2097152_S2x5x2097152_0_1_2 : S2x1x2097152.BroadcastsInDim S2x5x2097152 (![0, 1, 2] : Fin 3 → Fin S2x5x2097152.rank)
  bcast_S1x5x1_S2x5x2097152_0_1_2 : S1x5x1.BroadcastsInDim S2x5x2097152 (![0, 1, 2] : Fin 3 → Fin S2x5x2097152.rank)
  reducesTo_S2x5x2097152_S2x5_d2 : S2x5x2097152.ReducesTo [2] S2x5
  h_S_ : 0 < S_.numel
  bcast_S_S2x5 : S_.BroadcastsInDim S2x5 (![] : Fin 0 → Fin S2x5.rank)
  reducesTo_S2x5_S_d0_1 : S2x5.ReducesTo [0, 1] S_

variable [Facts₀]

class Facts : Prop extends Facts₀ where

variable [Facts]
-- ==== Proof.Pieces.lean ====
/-
  What each control case of the body leaves behind, as plain values of the blocks it loaded.

  The body has three cases. At the first point of a batch element's run (case A) it stores zero columns into the three
  running columns, reads them back and stores, into each, the column it read plus the point's block sum. At a middle
  point (case B) it stores, into each, the column the point before left plus the block sum. At the last point of the run
  (case C) it does the same and then copies each running column into its output block. In every case each buffer ends
  holding the payload of its one last covering store, the loads inside that payload reading whole buffers.
-/
import proofs.«125857_j56255481643615_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid0.Coords)
  (arg2 : Memref sig .tc .vmem S1x5x131072 .f32) (harg2 : arg2.IsWhole)
  (arg3 : Memref sig .tc .vmem S1x1x131072 .i32) (harg3 : arg3.IsWhole)
  (arg4 : Memref sig .tc .vmem S1x5x1 .f32) (harg4 : arg4.IsWhole)
  (arg5 : Memref sig .tc .vmem S1x5x1 .f32) (harg5 : arg5.IsWhole)
  (arg6 : Memref sig .tc .vmem S1x5x1 .f32) (harg6 : arg6.IsWhole)
  (arg7 : Memref sig .tc .vmem S5x1 .f32) (harg7 : arg7.IsWhole)
  (arg8 : Memref sig .tc .vmem S5x1 .f32) (harg8 : arg8.IsWhole)
  (arg9 : Memref sig .tc .vmem S5x1 .f32) (harg9 : arg9.IsWhole)
  (x0 : Vec F S1x5x131072 .f32) (x1 : Vec F S1x1x131072 .i32)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first point of a run: the running columns restart from zero -/

theorem first_inter (hc0 : cond0_0 i) (hc1 : ¬cond0_1 i) :
    sout0_A_0 c i arg2 harg2 arg3 harg3 arg4 harg4 arg5 harg5 arg6 harg6 arg7 harg7 arg8 harg8 arg9 harg9 hc0 hc1 x0 x1 = k0_pay10 x0 x1 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem first_vol (hc0 : cond0_0 i) (hc1 : ¬cond0_1 i) :
    sout0_A_1 c i arg2 harg2 arg3 harg3 arg4 harg4 arg5 harg5 arg6 harg6 arg7 harg7 arg8 harg8 arg9 harg9 hc0 hc1 x0 x1 = k0_pay11 x0 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem first_count (hc0 : cond0_0 i) (hc1 : ¬cond0_1 i) :
    sout0_A_2 c i arg2 harg2 arg3 harg3 arg4 harg4 arg5 harg5 arg6 harg6 arg7 harg7 arg8 harg8 arg9 harg9 hc0 hc1 x0 x1 = k0_pay1 (k0_pay12 x1 (k0_pay7 (F := F))) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

/-! ## A middle point: each running column steps from what the point before left -/

theorem mid_inter (hc0 : ¬cond0_0 i) (hc1 : ¬cond0_1 i) (xs0 xs1 xs2 : Vec F S5x1 .f32) :
    sout0_B_0 c i arg2 harg2 arg3 harg3 arg4 harg4 arg5 harg5 arg6 harg6 arg7 harg7 arg8 harg8 arg9 harg9 hc0 hc1 x0 x1 xs0 xs1 xs2 = k0_pay10 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem mid_vol (hc0 : ¬cond0_0 i) (hc1 : ¬cond0_1 i) (xs0 xs1 xs2 : Vec F S5x1 .f32) :
    sout0_B_1 c i arg2 harg2 arg3 harg3 arg4 harg4 arg5 harg5 arg6 harg6 arg7 harg7 arg8 harg8 arg9 harg9 hc0 hc1 x0 x1 xs0 xs1 xs2 = k0_pay11 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem mid_count (hc0 : ¬cond0_0 i) (hc1 : ¬cond0_1 i) (xs0 xs1 xs2 : Vec F S5x1 .f32) :
    sout0_B_2 c i arg2 harg2 arg3 harg3 arg4 harg4 arg5 harg5 arg6 harg6 arg7 harg7 arg8 harg8 arg9 harg9 hc0 hc1 x0 x1 xs0 xs1 xs2 = k0_pay1 (k0_pay12 x1 xs2) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

/-! ## The last point of a run: the same step, then the columns copied out -/

theorem last_inter (hc0 : ¬cond0_0 i) (hc1 : cond0_1 i) (xs0 xs1 xs2 : Vec F S5x1 .f32) :
    sout0_C_0 c i arg2 harg2 arg3 harg3 arg4 harg4 arg5 harg5 arg6 harg6 arg7 harg7 arg8 harg8 arg9 harg9 hc0 hc1 x0 x1 xs0 xs1 xs2 = k0_pay10 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem last_vol (hc0 : ¬cond0_0 i) (hc1 : cond0_1 i) (xs0 xs1 xs2 : Vec F S5x1 .f32) :
    sout0_C_1 c i arg2 harg2 arg3 harg3 arg4 harg4 arg5 harg5 arg6 harg6 arg7 harg7 arg8 harg8 arg9 harg9 hc0 hc1 x0 x1 xs0 xs1 xs2 = k0_pay11 x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem last_count (hc0 : ¬cond0_0 i) (hc1 : cond0_1 i) (xs0 xs1 xs2 : Vec F S5x1 .f32) :
    sout0_C_2 c i arg2 harg2 arg3 harg3 arg4 harg4 arg5 harg5 arg6 harg6 arg7 harg7 arg8 harg8 arg9 harg9 hc0 hc1 x0 x1 xs0 xs1 xs2 = k0_pay1 (k0_pay12 x1 xs2) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S5x1) hz2]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem out_inter (hc0 : ¬cond0_0 i) (hc1 : cond0_1 i) (xs0 xs1 xs2 : Vec F S5x1 .f32) :
    out0_C_2 c i arg2 harg2 arg3 harg3 arg4 harg4 arg5 harg5 arg6 harg6 arg7 harg7 arg8 harg8 arg9 harg9 hc0 hc1 x0 x1 xs0 xs1 xs2 = k0_pay2 (k0_pay10 x0 x1 xs0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x5x1) hz3]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem out_vol (hc0 : ¬cond0_0 i) (hc1 : cond0_1 i) (xs0 xs1 xs2 : Vec F S5x1 .f32) :
    out0_C_3 c i arg2 harg2 arg3 harg3 arg4 harg4 arg5 harg5 arg6 harg6 arg7 harg7 arg8 harg8 arg9 harg9 hc0 hc1 x0 x1 xs0 xs1 xs2 = k0_pay3 (k0_pay11 x0 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x5x1) hz3]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

theorem out_count (hc0 : ¬cond0_0 i) (hc1 : cond0_1 i) (xs0 xs1 xs2 : Vec F S5x1 .f32) :
    out0_C_4 c i arg2 harg2 arg3 harg3 arg4 harg4 arg5 harg5 arg6 harg6 arg7 harg7 arg8 harg8 arg9 harg9 hc0 hc1 x0 x1 xs0 xs1 xs2 = k0_pay4 (k0_pay1 (k0_pay12 x1 xs2)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_cons_unit_zero (S := S1x5x1) hz3]
  simp only [View.readCov_unit_zero (S := S5x1) _ hz2, View.readAt_eq_ld, harg2.read_unread, harg3.read_unread,
    harg7.read_unread, harg8.read_unread, harg9.read_unread,
    View.ld_unit_zero (S := S1x5x131072) hz3, View.ld_unit_zero (S := S1x1x131072) hz3, View.ld_unit_zero (S := S5x1) hz2]

end Cert.KernelIdeal.Pieces

end
-- ==== Proof.Columns.lean ====
/-
  The three running columns, point by point.

  The grid has 32 points: batch element q = 0, 1 runs through points 16·q … 16·q + 15, one per block of 131072 voxels.
  After point n each of the three running columns holds: at the first point of a run (n a multiple of 16), the point's
  step applied to the zero column; at every other point, the point's step applied to what the point before left.
  So after any point the column is the fold of the steps over the run's points so far, started from zero; and at the
  last point of a run each output block is a copy of its column.
-/
import proofs.«125857_j56255481643615_1_alg».proof.Proof.Gen.KernelIdeal.Frame
import proofs.«125857_j56255481643615_1_alg».proof.Proof.Pieces
import Idealize.ShloMosaic.Lib.Pipeline.Value

noncomputable section

namespace Cert.KernelIdeal.Columns

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (c : Dev nD)

theorem hN : cfg0.N = 32 := N_0

/-! ## The columns, their first-point values and their steps -/

/-- The running sum of volume times indicator: what its column holds after point `n`. -/
def inter (n : ℕ) (h : n < cfg0.N) : Vec F S5x1 .f32 := (fun p : Vec F S1x5x1 .f32 × Vec F S1x5x1 .f32 × Vec F S1x5x1 .f32 × Vec F S5x1 .f32 × Vec F S5x1 .f32 × Vec F S5x1 .f32 => p.2.2.2.1) (outsAt0 m c n h)
/-- The point's step applied to the zero column: what the first point of a run leaves. -/
def interStart (n : ℕ) (h : n < cfg0.N) : Vec F S5x1 .f32 := k0_pay10 (iblk m c 0 ⟨n, h⟩) (iblk m c 1 ⟨n, h⟩) (k0_pay5 (F := F))
/-- The point's step applied to a column `acc`. -/
def interStep (n : ℕ) (h : n < cfg0.N) (acc : Vec F S5x1 .f32) : Vec F S5x1 .f32 := k0_pay10 (iblk m c 0 ⟨n, h⟩) (iblk m c 1 ⟨n, h⟩) acc

/-- The running sum of the volume: what its column holds after point `n`. -/
def vol (n : ℕ) (h : n < cfg0.N) : Vec F S5x1 .f32 := (fun p : Vec F S1x5x1 .f32 × Vec F S1x5x1 .f32 × Vec F S1x5x1 .f32 × Vec F S5x1 .f32 × Vec F S5x1 .f32 × Vec F S5x1 .f32 => p.2.2.2.2.1) (outsAt0 m c n h)
/-- The point's step applied to the zero column: what the first point of a run leaves. -/
def volStart (n : ℕ) (h : n < cfg0.N) : Vec F S5x1 .f32 := k0_pay11 (iblk m c 0 ⟨n, h⟩) (k0_pay6 (F := F))
/-- The point's step applied to a column `acc`. -/
def volStep (n : ℕ) (h : n < cfg0.N) (acc : Vec F S5x1 .f32) : Vec F S5x1 .f32 := k0_pay11 (iblk m c 0 ⟨n, h⟩) acc

/-- The running count of voxels per class: what its column holds after point `n`. -/
def count (n : ℕ) (h : n < cfg0.N) : Vec F S5x1 .f32 := (fun p : Vec F S1x5x1 .f32 × Vec F S1x5x1 .f32 × Vec F S1x5x1 .f32 × Vec F S5x1 .f32 × Vec F S5x1 .f32 × Vec F S5x1 .f32 => p.2.2.2.2.2) (outsAt0 m c n h)
/-- The point's step applied to the zero column: what the first point of a run leaves. -/
def countStart (n : ℕ) (h : n < cfg0.N) : Vec F S5x1 .f32 := k0_pay1 (k0_pay12 (iblk m c 1 ⟨n, h⟩) (k0_pay7 (F := F)))
/-- The point's step applied to a column `acc`. -/
def countStep (n : ℕ) (h : n < cfg0.N) (acc : Vec F S5x1 .f32) : Vec F S5x1 .f32 := k0_pay1 (k0_pay12 (iblk m c 1 ⟨n, h⟩) acc)

/-! ## The running sum of volume times indicator -/

theorem inter_reset (n : ℕ) (h : n < cfg0.N) (h0 : n % 16 = 0) : inter m c n h = interStart m c n h := by
  have h1 : ¬(⟨n, h⟩ : Fin cfg0.N).val % 16 = 15 := by dsimp only; omega
  exact (congrArg (fun p : Vec F S1x5x1 .f32 × Vec F S1x5x1 .f32 × Vec F S1x5x1 .f32 × Vec F S5x1 .f32 × Vec F S5x1 .f32 × Vec F S5x1 .f32 => p.2.2.2.1) (outsAt0_A m c ⟨n, h⟩ h0 h1)).trans
    (Pieces.first_inter c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) scM0_2 (Memref.isWhole_whole _) (iblk m c 0 ⟨n, h⟩) (iblk m c 1 ⟨n, h⟩) ((hcond0_0 ⟨n, h⟩).mpr h0) (fun hh => h1 ((hcond0_1 ⟨n, h⟩).mp hh)))

theorem inter_step (n : ℕ) (h : n + 1 < cfg0.N) (h0 : ¬(n + 1) % 16 = 0) :
    inter m c (n + 1) h = interStep m c (n + 1) h (inter m c n (Nat.lt_of_succ_lt h)) := by
  by_cases h1 : (n + 1) % 16 = 15
  · exact (congrArg (fun p : Vec F S1x5x1 .f32 × Vec F S1x5x1 .f32 × Vec F S1x5x1 .f32 × Vec F S5x1 .f32 × Vec F S5x1 .f32 × Vec F S5x1 .f32 => p.2.2.2.1) (outsAt0_C m c (⟨n + 1, h⟩ : Fin cfg0.N) h0 h1)).trans
      (Pieces.last_inter c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (iblk m c 0 (⟨n + 1, h⟩ : Fin cfg0.N)) (iblk m c 1 (⟨n + 1, h⟩ : Fin cfg0.N)) (fun hh => h0 ((hcond0_0 (⟨n + 1, h⟩ : Fin cfg0.N)).mp hh)) ((hcond0_1 (⟨n + 1, h⟩ : Fin cfg0.N)).mpr h1)
        (inter m c n (Nat.lt_of_succ_lt h)) (vol m c n (Nat.lt_of_succ_lt h)) (count m c n (Nat.lt_of_succ_lt h)))
  · exact (congrArg (fun p : Vec F S1x5x1 .f32 × Vec F S1x5x1 .f32 × Vec F S1x5x1 .f32 × Vec F S5x1 .f32 × Vec F S5x1 .f32 × Vec F S5x1 .f32 => p.2.2.2.1) (outsAt0_B m c (⟨n + 1, h⟩ : Fin cfg0.N) h0 h1)).trans
      (Pieces.mid_inter c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (iblk m c 0 (⟨n + 1, h⟩ : Fin cfg0.N)) (iblk m c 1 (⟨n + 1, h⟩ : Fin cfg0.N)) (fun hh => h0 ((hcond0_0 (⟨n + 1, h⟩ : Fin cfg0.N)).mp hh)) (fun hh => h1 ((hcond0_1 (⟨n + 1, h⟩ : Fin cfg0.N)).mp hh))
        (inter m c n (Nat.lt_of_succ_lt h)) (vol m c n (Nat.lt_of_succ_lt h)) (count m c n (Nat.lt_of_succ_lt h)))

/-- After any point the column is the fold of the steps over the run's points so far. -/
theorem inter_fold (t : ℕ) (ht : t < cfg0.N) (h' : 16 * (t / 16) + t % 16 < cfg0.N) :
    inter m c t ht = Pipeline.accAt (interStart m c) (interStep m c) (16 * (t / 16)) (t % 16) h' :=
  Pipeline.eq_accAt_of_mod (inter m c) 16 (interStart m c) (interStep m c) (inter_reset m c) (inter_step m c)
    (by decide) t ht h'

/-! ## The running sum of the volume -/

theorem vol_reset (n : ℕ) (h : n < cfg0.N) (h0 : n % 16 = 0) : vol m c n h = volStart m c n h := by
  have h1 : ¬(⟨n, h⟩ : Fin cfg0.N).val % 16 = 15 := by dsimp only; omega
  exact (congrArg (fun p : Vec F S1x5x1 .f32 × Vec F S1x5x1 .f32 × Vec F S1x5x1 .f32 × Vec F S5x1 .f32 × Vec F S5x1 .f32 × Vec F S5x1 .f32 => p.2.2.2.2.1) (outsAt0_A m c ⟨n, h⟩ h0 h1)).trans
    (Pieces.first_vol c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) scM0_2 (Memref.isWhole_whole _) (iblk m c 0 ⟨n, h⟩) (iblk m c 1 ⟨n, h⟩) ((hcond0_0 ⟨n, h⟩).mpr h0) (fun hh => h1 ((hcond0_1 ⟨n, h⟩).mp hh)))

theorem vol_step (n : ℕ) (h : n + 1 < cfg0.N) (h0 : ¬(n + 1) % 16 = 0) :
    vol m c (n + 1) h = volStep m c (n + 1) h (vol m c n (Nat.lt_of_succ_lt h)) := by
  by_cases h1 : (n + 1) % 16 = 15
  · exact (congrArg (fun p : Vec F S1x5x1 .f32 × Vec F S1x5x1 .f32 × Vec F S1x5x1 .f32 × Vec F S5x1 .f32 × Vec F S5x1 .f32 × Vec F S5x1 .f32 => p.2.2.2.2.1) (outsAt0_C m c (⟨n + 1, h⟩ : Fin cfg0.N) h0 h1)).trans
      (Pieces.last_vol c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (iblk m c 0 (⟨n + 1, h⟩ : Fin cfg0.N)) (iblk m c 1 (⟨n + 1, h⟩ : Fin cfg0.N)) (fun hh => h0 ((hcond0_0 (⟨n + 1, h⟩ : Fin cfg0.N)).mp hh)) ((hcond0_1 (⟨n + 1, h⟩ : Fin cfg0.N)).mpr h1)
        (inter m c n (Nat.lt_of_succ_lt h)) (vol m c n (Nat.lt_of_succ_lt h)) (count m c n (Nat.lt_of_succ_lt h)))
  · exact (congrArg (fun p : Vec F S1x5x1 .f32 × Vec F S1x5x1 .f32 × Vec F S1x5x1 .f32 × Vec F S5x1 .f32 × Vec F S5x1 .f32 × Vec F S5x1 .f32 => p.2.2.2.2.1) (outsAt0_B m c (⟨n + 1, h⟩ : Fin cfg0.N) h0 h1)).trans
      (Pieces.mid_vol c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (iblk m c 0 (⟨n + 1, h⟩ : Fin cfg0.N)) (iblk m c 1 (⟨n + 1, h⟩ : Fin cfg0.N)) (fun hh => h0 ((hcond0_0 (⟨n + 1, h⟩ : Fin cfg0.N)).mp hh)) (fun hh => h1 ((hcond0_1 (⟨n + 1, h⟩ : Fin cfg0.N)).mp hh))
        (inter m c n (Nat.lt_of_succ_lt h)) (vol m c n (Nat.lt_of_succ_lt h)) (count m c n (Nat.lt_of_succ_lt h)))

/-- After any point the column is the fold of the steps over the run's points so far. -/
theorem vol_fold (t : ℕ) (ht : t < cfg0.N) (h' : 16 * (t / 16) + t % 16 < cfg0.N) :
    vol m c t ht = Pipeline.accAt (volStart m c) (volStep m c) (16 * (t / 16)) (t % 16) h' :=
  Pipeline.eq_accAt_of_mod (vol m c) 16 (volStart m c) (volStep m c) (vol_reset m c) (vol_step m c)
    (by decide) t ht h'

/-! ## The running count of voxels per class -/

theorem count_reset (n : ℕ) (h : n < cfg0.N) (h0 : n % 16 = 0) : count m c n h = countStart m c n h := by
  have h1 : ¬(⟨n, h⟩ : Fin cfg0.N).val % 16 = 15 := by dsimp only; omega
  exact (congrArg (fun p : Vec F S1x5x1 .f32 × Vec F S1x5x1 .f32 × Vec F S1x5x1 .f32 × Vec F S5x1 .f32 × Vec F S5x1 .f32 × Vec F S5x1 .f32 => p.2.2.2.2.2) (outsAt0_A m c ⟨n, h⟩ h0 h1)).trans
    (Pieces.first_count c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) scM0_2 (Memref.isWhole_whole _) (iblk m c 0 ⟨n, h⟩) (iblk m c 1 ⟨n, h⟩) ((hcond0_0 ⟨n, h⟩).mpr h0) (fun hh => h1 ((hcond0_1 ⟨n, h⟩).mp hh)))

theorem count_step (n : ℕ) (h : n + 1 < cfg0.N) (h0 : ¬(n + 1) % 16 = 0) :
    count m c (n + 1) h = countStep m c (n + 1) h (count m c n (Nat.lt_of_succ_lt h)) := by
  by_cases h1 : (n + 1) % 16 = 15
  · exact (congrArg (fun p : Vec F S1x5x1 .f32 × Vec F S1x5x1 .f32 × Vec F S1x5x1 .f32 × Vec F S5x1 .f32 × Vec F S5x1 .f32 × Vec F S5x1 .f32 => p.2.2.2.2.2) (outsAt0_C m c (⟨n + 1, h⟩ : Fin cfg0.N) h0 h1)).trans
      (Pieces.last_count c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (iblk m c 0 (⟨n + 1, h⟩ : Fin cfg0.N)) (iblk m c 1 (⟨n + 1, h⟩ : Fin cfg0.N)) (fun hh => h0 ((hcond0_0 (⟨n + 1, h⟩ : Fin cfg0.N)).mp hh)) ((hcond0_1 (⟨n + 1, h⟩ : Fin cfg0.N)).mpr h1)
        (inter m c n (Nat.lt_of_succ_lt h)) (vol m c n (Nat.lt_of_succ_lt h)) (count m c n (Nat.lt_of_succ_lt h)))
  · exact (congrArg (fun p : Vec F S1x5x1 .f32 × Vec F S1x5x1 .f32 × Vec F S1x5x1 .f32 × Vec F S5x1 .f32 × Vec F S5x1 .f32 × Vec F S5x1 .f32 => p.2.2.2.2.2) (outsAt0_B m c (⟨n + 1, h⟩ : Fin cfg0.N) h0 h1)).trans
      (Pieces.mid_count c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) scM0_0 (Memref.isWhole_whole _) scM0_1 (Memref.isWhole_whole _) scM0_2 (Memref.isWhole_whole _) (iblk m c 0 (⟨n + 1, h⟩ : Fin cfg0.N)) (iblk m c 1 (⟨n + 1, h⟩ : Fin cfg0.N)) (fun hh => h0 ((hcond0_0 (⟨n + 1, h⟩ : Fin cfg0.N)).mp hh)) (fun hh => h1 ((hcond0_1 (⟨n + 1, h⟩ : Fin cfg0.N)).mp hh))
        (inter m c n (Nat.lt_of_succ_lt h)) (vol m c n (Nat.lt_of_succ_lt h)) (count m c n (Nat.lt_of_succ_lt h)))

/-- After any point the column is the fold of the steps over the run's points so far. -/
theorem count_fold (t : ℕ) (ht : t < cfg0.N) (h' : 16 * (t / 16) + t % 16 < cfg0.N) :
    count m c t ht = Pipeline.accAt (countStart m c) (countStep m c) (16 * (t / 16)) (t % 16) h' :=
  Pipeline.eq_accAt_of_mod (count m c) 16 (countStart m c) (countStep m c) (count_reset m c) (count_step m c)
    (by decide) t ht h'

/-! ## The last point of a run: each output block is a copy of its column -/

theorem out2_last (t : Fin cfg0.N) (h0 : ¬t.val % 16 = 0) (h1 : t.val % 16 = 15) :
    (fun p : Vec F S1x5x1 .f32 × Vec F S1x5x1 .f32 × Vec F S1x5x1 .f32 × Vec F S5x1 .f32 × Vec F S5x1 .f32 × Vec F S5x1 .f32 => p.1) (outsAt0 m c t.val t.isLt) = k0_pay2 (inter m c t.val t.isLt) :=
  ((congrArg (fun p : Vec F S1x5x1 .f32 × Vec F S1x5x1 .f32 × Vec F S1x5x1 .f32 × Vec F S5x1 .f32 × Vec F S5x1 .f32 × Vec F S5x1 .f32 => p.1) (outsAt0_C m c t h0 h1)).trans
    (Pieces.out_inter c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (fun hh => h0 ((hcond0_0 t).mp hh)) ((hcond0_1 t).mpr h1) ((fun p : Vec F S1x5x1 .f32 × Vec F S1x5x1 .f32 × Vec F S1x5x1 .f32 × Vec F S5x1 .f32 × Vec F S5x1 .f32 × Vec F S5x1 .f32 => p.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.2) (outsAt0 m c (t.val - 1) (Nat.lt_of_le_of_lt (Nat.sub_le _ _) t.isLt))))).trans
    (congrArg k0_pay2 (((congrArg (fun p : Vec F S1x5x1 .f32 × Vec F S1x5x1 .f32 × Vec F S1x5x1 .f32 × Vec F S5x1 .f32 × Vec F S5x1 .f32 × Vec F S5x1 .f32 => p.2.2.2.1) (outsAt0_C m c t h0 h1)).trans
      (Pieces.last_inter c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (fun hh => h0 ((hcond0_0 t).mp hh)) ((hcond0_1 t).mpr h1) ((fun p : Vec F S1x5x1 .f32 × Vec F S1x5x1 .f32 × Vec F S1x5x1 .f32 × Vec F S5x1 .f32 × Vec F S5x1 .f32 × Vec F S5x1 .f32 => p.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.2) (outsAt0 m c (t.val - 1) (Nat.lt_of_le_of_lt (Nat.sub_le _ _) t.isLt))))).symm))

theorem out3_last (t : Fin cfg0.N) (h0 : ¬t.val % 16 = 0) (h1 : t.val % 16 = 15) :
    (fun p : Vec F S1x5x1 .f32 × Vec F S1x5x1 .f32 × Vec F S1x5x1 .f32 × Vec F S5x1 .f32 × Vec F S5x1 .f32 × Vec F S5x1 .f32 => p.2.1) (outsAt0 m c t.val t.isLt) = k0_pay3 (vol m c t.val t.isLt) :=
  ((congrArg (fun p : Vec F S1x5x1 .f32 × Vec F S1x5x1 .f32 × Vec F S1x5x1 .f32 × Vec F S5x1 .f32 × Vec F S5x1 .f32 × Vec F S5x1 .f32 => p.2.1) (outsAt0_C m c t h0 h1)).trans
    (Pieces.out_vol c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (fun hh => h0 ((hcond0_0 t).mp hh)) ((hcond0_1 t).mpr h1) ((fun p : Vec F S1x5x1 .f32 × Vec F S1x5x1 .f32 × Vec F S1x5x1 .f32 × Vec F S5x1 .f32 × Vec F S5x1 .f32 × Vec F S5x1 .f32 => p.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.2) (outsAt0 m c (t.val - 1) (Nat.lt_of_le_of_lt (Nat.sub_le _ _) t.isLt))))).trans
    (congrArg k0_pay3 (((congrArg (fun p : Vec F S1x5x1 .f32 × Vec F S1x5x1 .f32 × Vec F S1x5x1 .f32 × Vec F S5x1 .f32 × Vec F S5x1 .f32 × Vec F S5x1 .f32 => p.2.2.2.2.1) (outsAt0_C m c t h0 h1)).trans
      (Pieces.last_vol c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (fun hh => h0 ((hcond0_0 t).mp hh)) ((hcond0_1 t).mpr h1) ((fun p : Vec F S1x5x1 .f32 × Vec F S1x5x1 .f32 × Vec F S1x5x1 .f32 × Vec F S5x1 .f32 × Vec F S5x1 .f32 × Vec F S5x1 .f32 => p.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.2) (outsAt0 m c (t.val - 1) (Nat.lt_of_le_of_lt (Nat.sub_le _ _) t.isLt))))).symm))

theorem out4_last (t : Fin cfg0.N) (h0 : ¬t.val % 16 = 0) (h1 : t.val % 16 = 15) :
    (fun p : Vec F S1x5x1 .f32 × Vec F S1x5x1 .f32 × Vec F S1x5x1 .f32 × Vec F S5x1 .f32 × Vec F S5x1 .f32 × Vec F S5x1 .f32 => p.2.2.1) (outsAt0 m c t.val t.isLt) = k0_pay4 (count m c t.val t.isLt) :=
  ((congrArg (fun p : Vec F S1x5x1 .f32 × Vec F S1x5x1 .f32 × Vec F S1x5x1 .f32 × Vec F S5x1 .f32 × Vec F S5x1 .f32 × Vec F S5x1 .f32 => p.2.2.1) (outsAt0_C m c t h0 h1)).trans
    (Pieces.out_count c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (fun hh => h0 ((hcond0_0 t).mp hh)) ((hcond0_1 t).mpr h1) ((fun p : Vec F S1x5x1 .f32 × Vec F S1x5x1 .f32 × Vec F S1x5x1 .f32 × Vec F S5x1 .f32 × Vec F S5x1 .f32 × Vec F S5x1 .f32 => p.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.2) (outsAt0 m c (t.val - 1) (Nat.lt_of_le_of_lt (Nat.sub_le _ _) t.isLt))))).trans
    (congrArg k0_pay4 (((congrArg (fun p : Vec F S1x5x1 .f32 × Vec F S1x5x1 .f32 × Vec F S1x5x1 .f32 × Vec F S5x1 .f32 × Vec F S5x1 .f32 × Vec F S5x1 .f32 => p.2.2.2.2.2) (outsAt0_C m c t h0 h1)).trans
      (Pieces.last_count c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (fun hh => h0 ((hcond0_0 t).mp hh)) ((hcond0_1 t).mpr h1) ((fun p : Vec F S1x5x1 .f32 × Vec F S1x5x1 .f32 × Vec F S1x5x1 .f32 × Vec F S5x1 .f32 × Vec F S5x1 .f32 × Vec F S5x1 .f32 => p.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.1) (outsAt0 m c (t.val - 1) (Nat.lt_of_le_of_lt (Nat.sub_le _ _) t.isLt))) ((fun p : Vec F S1x5x1 .f32 × Vec F S1x5x1 .f32 × Vec F S1x5x1 .f32 × Vec F S5x1 .f32 × Vec F S5x1 .f32 × Vec F S5x1 .f32 => p.2.2.2.2.2) (outsAt0 m c (t.val - 1) (Nat.lt_of_le_of_lt (Nat.sub_le _ _) t.isLt))))).symm))

end Cert.KernelIdeal.Columns

end
-- ==== Proof.Indicator.lean ====
/-
  The class indicator. For a voxel whose label is the 32-bit word `w` and a class `r` (one of five), both programs
  form the number that is 1 when the label is the class and 0 otherwise, each in its own spelling: one compares the
  class number with the label, widens the resulting bit to a 32-bit word and reads that word as a signed integer; the
  other compares the label with the class number and reads the bit as an unsigned integer. A bit widened with zeros is
  non-negative, so its signed reading is its unsigned one, and equality of words is symmetric: the two numbers are one.
-/
import Idealize.ShloMosaic.PureOps.Ideal
import Idealize.ShloMosaic.Lib.ValueIdx

noncomputable section

namespace Cert.Dice

open Idealize.ShloMosaic

/-- A single bit widened to 32 bits and read signed is the bit read unsigned. -/
theorem toInt_widen_bit : ∀ b : BitVec 1, (b.setWidth 32).toInt = (b.toNat : ℤ) := by decide

/-- Comparing two words for equality does not depend on their order. -/
theorem cmpi_eq_comm (x y : BitVec 32) : IntOp.cmpi .eq x y = IntOp.cmpi .eq y x := by
  show BitVec.ofBool (x == y) = BitVec.ofBool (y == x)
  rw [BEq.comm]

/-- The indicator as the widened, signed reading of (class = label). -/
def indSigned (r : Nat) (w : BitVec 32) : EReal :=
  FloatOps.sitofp (F := Ideal) .f32 ((IntOp.cmpi .eq (BitVec.ofNat 32 r) w).setWidth 32)

/-- The indicator as the unsigned reading of (label = class). -/
def indUnsigned (r : Nat) (w : BitVec 32) : EReal :=
  FloatOps.uitofp (F := Ideal) .f32 (IntOp.cmpi .eq w (BitVec.ofNat 32 r))

/-- The two spellings are the same number. -/
theorem indSigned_eq_indUnsigned (r : Nat) (w : BitVec 32) : indSigned r w = indUnsigned r w := by
  unfold indSigned indUnsigned
  rw [cmpi_eq_comm (BitVec.ofNat 32 r) w]
  show (((((IntOp.cmpi .eq w (BitVec.ofNat 32 r)).setWidth 32).toInt : ℤ) : ℝ) : EReal)
    = ((((IntOp.cmpi .eq w (BitVec.ofNat 32 r)).toNat : ℕ) : ℝ) : EReal)
  rw [toInt_widen_bit]
  push_cast
  rfl

end Cert.Dice

end
-- ==== Proof.LibRowMax.lean ====
/-
  Row maxima of a matrix, at the exact (extended-real) reading of the float operations.

  The lane reduction by maximum along the columns of an `a × b` matrix, started from a given word, has at row `p` the fold
  of `max` from that word's value over the row's `b` entries (`rowMax_lane_apply`). Also here: the words a printed
  maximum and a printed sum start from (the word of −∞, the word of +0.0) are the neutral words of those reductions,
  stated as equations of the exact form a reduction's side condition has, so that a term built with them is rewritten
  by lemmas about reductions without unfolding anything (`maxAcc`, `addAcc`).
-/
import Idealize.ShloMosaic.PureOps.Ideal.Laws
import Idealize.ShloMosaic.Lib.ValueIdx

noncomputable section

namespace Cert.RowMax

open Idealize.ShloMosaic Idealize.ShloMosaic.ValueIdx

/-- The word a row maximum starts from (that of −∞) is the neutral word of a maximum at f32. -/
theorem maxAcc : (0xFF800000#32 : BitVec 32) = FKind.maximumf.neutral .f32 (.inl rfl) := rfl

/-- The word a row sum starts from (that of +0.0) is the neutral word of a sum at f32. -/
theorem addAcc : (0x00000000#32 : BitVec 32) = FKind.add.neutral .f32 (.inl rfl) := rfl

/-- The maximum of each row of a matrix as the lane reduction gives it: at row `p` the fold of max, from the value of the
    starting word, over that row's entries. -/
theorem rowMax_lane_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  have e : (src ∘ h.lift (ix1 p)) = fun k : Fin b => src (ix2 p k) := funext fun k => congrArg src (funext fun ax => Fin.ext (by
    match ax with
    | ⟨0, _⟩ => rfl
    | ⟨1, _⟩ => rfl))
  rw [e]
  rfl

end Cert.RowMax

end
-- ==== Proof.LibKeepdims.lean ====
/-
  KEEPDIMS COLUMNS AND THE LANE SOFTMAX, read at an index at the ideal values.

  A per-row number `[a]` kept as a column `[a, 1]` and spread over `b` columns reads, at `(p, c)`, the number of row `p`
  (`shapeCast_col_apply`, `broadcastTo_col_apply`); a lane sum along the columns is the sum over the row (`rowSum_apply`; the
  row maximum as a fold of max is the row-maximum module's). With the row maximum and the row sum taken by lane reductions, the
  softmax a kernel body spells as `exp (S − max) / sum (exp (S − max))` over an `a × b` matrix `S` is, at `(r, j)`,
  the exponential of `S r j` minus the fold of max over row `r`, divided by the sum over the row of those exponentials
  (`laneSoftmax_apply`). Every lemma holds for all extents.
-/
import Idealize.ShloMosaic.PureOps.Ideal
import Idealize.ShloMosaic.PureOps.Ideal.Laws
import Idealize.ShloMosaic.Lib.ValueIdx
import Idealize.ShloMosaic.Lib.Pipeline.Value
import proofs.«125857_j56255481643615_1_alg».proof.Proof.LibRowMax

noncomputable section

open scoped BigOperators

namespace Cert.Keepdims

open Idealize.ShloMosaic Idealize.ShloMosaic.ValueIdx

variable {α : Type}

/-- A vector `[a]` cast to a column `[a, 1]` reads, at `(i, u)`, the vector at `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry of row `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane reduction by sum along the columns, at row `p`: the sum over the row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  have e : (fun k => src (h.lift (ix1 p) k)) = fun k : Fin b => src (ix2 p k) := funext fun k => congrArg src (funext fun ax => Fin.ext (by
    match ax with
    | ⟨0, _⟩ => rfl
    | ⟨1, _⟩ => rfl))
  exact congrArg (fun f : Fin b → EReal => ∑ k : Fin b, f k) e

/-- THE LANE SOFTMAX at `(r, j)`: with `M` the fold of max over row `r` from the starting word's value,
    `exp (S r j − M)` divided by the sum over the row of `exp (S r k − M)`. -/
theorem laneSoftmax_apply {a b : ℕ} (S : FVec Ideal ⟨2, ![a, b]⟩ .f32) (accm acca : BitVec 32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ hφ' : FKind.Formats .f32)
    (hm : accm = FKind.maximumf.neutral .f32 hφ) (ha : acca = FKind.add.neutral .f32 hφ') (r : Fin a) (j : Fin b) :
    divf (exp (subf S (broadcastTo ⟨2, ![a, b]⟩ (shapeCast ⟨2, ![a, 1]⟩ (multiReduction .maximumf [1] ⟨1, ![a]⟩ S accm hr hφ hm) hc) hb)))
        (broadcastTo ⟨2, ![a, b]⟩ (shapeCast ⟨2, ![a, 1]⟩ (multiReduction .add [1] ⟨1, ![a]⟩
          (exp (subf S (broadcastTo ⟨2, ![a, b]⟩ (shapeCast ⟨2, ![a, 1]⟩ (multiReduction .maximumf [1] ⟨1, ![a]⟩ S accm hr hφ hm) hc) hb)))
          acca hr hφ' ha) hc) hb) (ix2 r j)
      = Ideal.div (Ideal.exp (S (ix2 r j) - (Finset.univ : Finset (Fin b)).fold max (Ideal.ofBits .f32 accm) (fun k => S (ix2 r k))))
          (∑ k : Fin b, Ideal.exp (S (ix2 r k) - (Finset.univ : Finset (Fin b)).fold max (Ideal.ofBits .f32 accm) (fun k => S (ix2 r k)))) := by
  have hM : ∀ k : Fin b, broadcastTo ⟨2, ![a, b]⟩ (shapeCast ⟨2, ![a, 1]⟩ (multiReduction .maximumf [1] ⟨1, ![a]⟩ S accm hr hφ hm) hc) hb (ix2 r k)
      = (Finset.univ : Finset (Fin b)).fold max (Ideal.ofBits .f32 accm) (fun k => S (ix2 r k)) := fun k =>
    ((broadcastTo_col_apply _ hb r k).trans (shapeCast_col_apply _ hc r 0)).trans (Cert.RowMax.rowMax_lane_apply S accm hr hφ hm r)
  have hW : ∀ k : Fin b, exp (subf S (broadcastTo ⟨2, ![a, b]⟩ (shapeCast ⟨2, ![a, 1]⟩ (multiReduction .maximumf [1] ⟨1, ![a]⟩ S accm hr hφ hm) hc) hb)) (ix2 r k)
      = Ideal.exp (S (ix2 r k) - (Finset.univ : Finset (Fin b)).fold max (Ideal.ofBits .f32 accm) (fun k => S (ix2 r k))) := fun k =>
    congrArg (fun y => Ideal.exp (S (ix2 r k) - y)) (hM k)
  refine (divf_apply _ _ (ix2 r j)).trans ?_
  rw [hW j]
  refine congrArg (Ideal.div _) ?_
  refine ((broadcastTo_col_apply _ hb r j).trans (shapeCast_col_apply _ hc r 0)).trans ?_
  refine (rowSum_apply _ acca hr hφ' ha r).trans ?_
  exact Finset.sum_congr rfl fun k _ => hW k

end Cert.Keepdims

end
-- ==== Proof.Payload.lean ====
/-
  One grid point's arithmetic, read at an index at the ideal values.

  At a grid point the body holds a block `x` of the volume, five class rows of 131072 voxels each, and the block `t` of
  the voxels' labels, one row of 131072 words. It forms the indicator array `h r j` = [label of voxel j is class r] and
  adds to three running columns (one number per class), respectively: the sum over the block's voxels of `x r j * h r j`,
  the sum of `x r j`, and the sum of `h r j`. Each of the three new columns, read at class `r`, is the old column at `r`
  plus that sum over the 131072 voxels of the block.
-/
import proofs.«125857_j56255481643615_1_alg».proof.Proof.Gen.KernelIdeal.Skeleton
import proofs.«125857_j56255481643615_1_alg».proof.Proof.Indicator
import proofs.«125857_j56255481643615_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Dice

/-- The block of the volume with its leading unit axis dropped reads, at (class r, voxel j), the block at (0, r, j). -/
theorem rows_apply (x : Vec Ideal S1x5x131072 .f32) (r : Fin 5) (j : Fin 131072) :
    k0_pay8 (F := Ideal) x (ix2 r j) = x (ix3 (0 : Fin 1) r j) := by
  unfold k0_pay8
  exact shapeCast_1ab_ab_apply x shapeCasts_S1x5x131072_S5x131072 r j

/-- The indicator array at (class r, voxel j): the class number compared with the voxel's label, the bit widened and read
    as a signed integer. -/
theorem hot_apply (t : Vec Ideal S1x1x131072 .i32) (r : Fin 5) (j : Fin 131072) :
    k0_pay9 (F := Ideal) t (ix2 r j) = indSigned r.val (t (ix3 (0 : Fin 1) (0 : Fin 1) j)) := by
  unfold k0_pay9 indSigned
  show FloatOps.sitofp .f32 ((IntOp.cmpi .eq (iota .tc S5x131072 32 [0] iota_S5x131072_d0_w32 (ix2 r j))
      (broadcastTo S5x131072 (shapeCast S1x131072 t shapeCasts_S1x1x131072_S1x131072) broadcasts_S1x131072_S5x131072 (ix2 r j))).setWidth 32) = _
  rw [iota_single_apply, broadcastTo_1b_ab_apply, shapeCast_1ab_ab_apply]

/-- The first running column after the point, at class r: the old entry plus the block's sum of volume times indicator. -/
theorem inter_apply (x : Vec Ideal S1x5x131072 .f32) (t : Vec Ideal S1x1x131072 .i32) (acc : Vec Ideal S5x1 .f32)
    (r : Fin 5) (z : Fin 1) :
    k0_pay10 (F := Ideal) x t acc (ix2 r z)
      = acc (ix2 r z) + ∑ j : Fin 131072, x (ix3 (0 : Fin 1) r j) * indSigned r.val (t (ix3 (0 : Fin 1) (0 : Fin 1) j)) := by
  unfold k0_pay10
  rw [shapeCast_self]
  refine (addf_apply _ _ _).trans (congrArg (acc (ix2 r z) + ·) ?_)
  refine (Cert.Keepdims.shapeCast_col_apply _ shapeCasts_S5_S5x1 r z).trans ?_
  refine (Cert.Keepdims.rowSum_apply _ _ reduces_S5x131072_S5 _ _ r).trans ?_
  refine Finset.sum_congr rfl fun j _ => ?_
  refine (mulf_apply _ _ _).trans ?_
  rw [rows_apply, hot_apply]

/-- The second running column after the point, at class r: the old entry plus the block's sum of the volume. -/
theorem vol_apply (x : Vec Ideal S1x5x131072 .f32) (acc : Vec Ideal S5x1 .f32) (r : Fin 5) (z : Fin 1) :
    k0_pay11 (F := Ideal) x acc (ix2 r z) = acc (ix2 r z) + ∑ j : Fin 131072, x (ix3 (0 : Fin 1) r j) := by
  unfold k0_pay11
  rw [shapeCast_self]
  refine (addf_apply _ _ _).trans (congrArg (acc (ix2 r z) + ·) ?_)
  refine (Cert.Keepdims.shapeCast_col_apply _ shapeCasts_S5_S5x1 r z).trans ?_
  refine (Cert.Keepdims.rowSum_apply _ _ reduces_S5x131072_S5 _ _ r).trans ?_
  exact Finset.sum_congr rfl fun j _ => rows_apply x r j

/-- The third running column after the point, at class r: the old entry plus the block's count of voxels of class r. -/
theorem count_apply (t : Vec Ideal S1x1x131072 .i32) (acc : Vec Ideal S5x1 .f32) (r : Fin 5) (z : Fin 1) :
    k0_pay1 (F := Ideal) (k0_pay12 (F := Ideal) t acc) (ix2 r z)
      = acc (ix2 r z) + ∑ j : Fin 131072, indSigned r.val (t (ix3 (0 : Fin 1) (0 : Fin 1) j)) := by
  unfold k0_pay1 k0_pay12
  rw [shapeCast_self]
  refine (addf_apply _ _ _).trans (congrArg (acc (ix2 r z) + ·) ?_)
  refine (Cert.Keepdims.shapeCast_col_apply _ shapeCasts_S5_S5x1 r z).trans ?_
  refine (Cert.Keepdims.rowSum_apply _ _ reduces_S5x131072_S5 _ _ r).trans ?_
  exact Finset.sum_congr rfl fun j _ => hot_apply t r j

/-- The column a new run of points starts from holds, at every entry, the number whose word is all zeros. -/
theorem zero5_apply (i : S5x1.Idx) : k0_pay5 (F := Ideal) i = Ideal.ofBits .f32 0x00000000#32 := rfl
theorem zero6_apply (i : S5x1.Idx) : k0_pay6 (F := Ideal) i = Ideal.ofBits .f32 0x00000000#32 := rfl
theorem zero7_apply (i : S5x1.Idx) : k0_pay7 (F := Ideal) i = Ideal.ofBits .f32 0x00000000#32 := rfl

/-- A column copied into an output block with a leading unit axis reads, at (0, r, 0), the column at (r, 0). -/
theorem out2_apply (v : Vec Ideal S5x1 .f32) (u : Fin 1) (r : Fin 5) (z : Fin 1) :
    k0_pay2 (F := Ideal) v (ix3 u r z) = v (ix2 r z) := by
  unfold k0_pay2; exact shapeCast_ab_1ab_apply v shapeCasts_S5x1_S1x5x1 u r z
theorem out3_apply (v : Vec Ideal S5x1 .f32) (u : Fin 1) (r : Fin 5) (z : Fin 1) :
    k0_pay3 (F := Ideal) v (ix3 u r z) = v (ix2 r z) := by
  unfold k0_pay3; exact shapeCast_ab_1ab_apply v shapeCasts_S5x1_S1x5x1 u r z
theorem out4_apply (v : Vec Ideal S5x1 .f32) (u : Fin 1) (r : Fin 5) (z : Fin 1) :
    k0_pay4 (F := Ideal) v (ix3 u r z) = v (ix2 r z) := by
  unfold k0_pay4; exact shapeCast_ab_1ab_apply v shapeCasts_S5x1_S1x5x1 u r z

end Cert.KernelIdeal.Payload

end
-- ==== Proof.Blocks.lean ====
/-
  The blocks the body loads, read at an index of the flattened arrays.

  Before the region the program flattens the volume to [2, 5, 2097152] and the labels to [2, 1, 2097152]. Grid point
  `t` is batch element `t / 16` and voxel block `t % 16`: its block of the volume is rows 0..4 of batch element `t / 16`,
  voxels `131072 · (t % 16)` onwards, and its block of labels the same voxels of that batch element. A block's
  coordinate along an axis is always (block index) × (block size) + (coordinate inside the block).
-/
import proofs.«125857_j56255481643615_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ) (c : Dev nD)

/-- The flattened volume [2, 5, 2097152] and the flattened labels [2, 1, 2097152] as the region finds them. -/
abbrev volFlat : S2x5x2097152.Idx → Elt F .f32 := V m c main_v0
abbrev labFlat : S2x1x2097152.Idx → Elt F .i32 := V m c main_v1
/-- Grid point `t`'s block of the volume [1, 5, 131072] and of the labels [1, 1, 131072]. -/
abbrev volBlk (t : Fin cfg0.N) : Vec F S1x5x131072 .f32 := iblk m c 0 t
abbrev labBlk (t : Fin cfg0.N) : Vec F S1x1x131072 .i32 := iblk m c 1 t

/-- The flattened volume the region finds is the reshape of the volume argument. -/
theorem V_vol : volFlat m c
    = shapeCast S2x5x2097152 (m ((c : Thread nD τ).loc main_arg0)) shapeCasts_S2x5x128x128x128_S2x5x2097152 := by
  show StableHlo.after hostOps0 (fun b => m (c, b)) (Proc.devRef .tc main_v0) = _
  after_results
  rfl

/-- The flattened labels the region finds are the reshape of the label argument. -/
theorem V_lab : labFlat m c
    = shapeCast S2x1x2097152 (m ((c : Thread nD τ).loc main_arg1)) shapeCasts_S2x128x128x128_S2x1x2097152 := by
  show StableHlo.after hostOps0 (fun b => m (c, b)) (Proc.devRef .tc main_v1) = _
  after_results
  rfl

/-- The printed index maps of the two inputs and the three outputs, decided once over the 32 grid points: the batch
    element is `t / 16`, the voxel block `t % 16`, and an output's block is the batch element's. -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 3) = t.val / 16 ∧ win0_1.index t (1 : Fin 3) = 0 ∧ win0_1.index t (2 : Fin 3) = t.val % 16
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-- The point's block of the volume at (0, r, j) is the flattened volume at (q, r, n), with q the point's batch
    element and n the voxel the block's j-th is. -/
theorem vol_block (t : Fin cfg0.N) (r : Fin 5) (j : Fin 131072) (q : Fin 2) (n : Fin 2097152)
    (hq : q.val = t.val / 16) (hn : n.val = 131072 * (t.val % 16) + j.val) :
    volBlk m c t (ix3 (0 : Fin 1) r j) = volFlat m c (ix3 q r n) := by
  unfold volBlk volFlat iblk
  rw [View.read_apply]
  show V m c main_v0 (((cfg0.win 0).blk t).view.emb (ix3 (0 : Fin 1) r j)) = V m c main_v0 (ix3 q r n)
  refine congrArg (V m c main_v0) (funext fun a => Fin.ext ?_)
  obtain ⟨e0, e1, e2, -⟩ := idx_facts t
  match a with
  | ⟨0, _⟩ => show win0_0.index t (0 : Fin 3) * 1 + 1 * 0 = q.val; omega
  | ⟨1, _⟩ => show win0_0.index t (1 : Fin 3) * 5 + 1 * r.val = r.val; omega
  | ⟨2, _⟩ => show win0_0.index t (2 : Fin 3) * 131072 + 1 * j.val = n.val; omega

/-- The point's block of labels at (0, 0, j) is the flattened labels at (q, 0, n). -/
theorem lab_block (t : Fin cfg0.N) (j : Fin 131072) (q : Fin 2) (n : Fin 2097152)
    (hq : q.val = t.val / 16) (hn : n.val = 131072 * (t.val % 16) + j.val) :
    labBlk m c t (ix3 (0 : Fin 1) (0 : Fin 1) j) = labFlat m c (ix3 q (0 : Fin 1) n) := by
  unfold labBlk labFlat iblk
  rw [View.read_apply]
  show V m c main_v1 (((cfg0.win 1).blk t).view.emb (ix3 (0 : Fin 1) (0 : Fin 1) j)) = V m c main_v1 (ix3 q (0 : Fin 1) n)
  refine congrArg (V m c main_v1) (funext fun a => Fin.ext ?_)
  obtain ⟨-, -, -, e0, e1, e2, -⟩ := idx_facts t
  match a with
  | ⟨0, _⟩ => show win0_1.index t (0 : Fin 3) * 1 + 1 * 0 = q.val; omega
  | ⟨1, _⟩ => show win0_1.index t (1 : Fin 3) * 1 + 1 * 0 = 0; omega
  | ⟨2, _⟩ => show win0_1.index t (2 : Fin 3) * 131072 + 1 * j.val = n.val; omega

end Cert.KernelIdeal.Blocks

end
-- ==== Proof.LibBlockSum.lean ====
/-
  GENERAL LEMMAS (Mathlib only; no program is imported).

  A sum over the first `n * b` naturals taken block by block: the index is `b * s + k` with `s < n` the block and
  `k < b` the place inside it. Only commutativity and associativity of `+` are used, so the law holds in every
  commutative additive monoid, the extended reals (with their two infinities) included. It is what joins a
  contraction accumulated in `n` blocks of `b` places with the same contraction taken whole.
-/
import Mathlib.Algebra.BigOperators.Fin

namespace Cert.BlockSum

open Finset

/-- `∑_{s < n} ∑_{k < b} f (b·s + k) = ∑_{K < n·b} f K`: by induction on the number of blocks, the last block split off
    the end of the range. -/
theorem sum_range_blocks {M : Type*} [AddCommMonoid M] (b : ℕ) (f : ℕ → M) :
    ∀ n : ℕ, ∑ s ∈ range n, ∑ k ∈ range b, f (b * s + k) = ∑ K ∈ range (n * b), f K
  | 0 => by simp
  | n + 1 => by
    rw [sum_range_succ, sum_range_blocks b f n, Nat.succ_mul, sum_range_add, Nat.mul_comm b n]

/-- A sum over `Fin n` of a function of the index's value is the sum over the first `n` naturals. -/
theorem sum_fin_eq_range {M : Type*} [AddCommMonoid M] (n : ℕ) (f : ℕ → M) :
    ∑ k : Fin n, f k.val = ∑ k ∈ range n, f k :=
  Fin.sum_univ_eq_sum_range f n

end Cert.BlockSum
-- ==== Proof.Regroup.lean ====
/-
  A sum over N = n · b places taken in n blocks of b.

  For a function `g` on the N places, extended by zero to every natural number, the sum over the blocks s < n of the sums
  over the places j < b of `g` at place b · s + j is the sum of `g` over all N places. Only commutativity and
  associativity of addition are used (the block law itself is the general lemma this rests on), so it holds for the
  extended reals with their two infinities.
-/
import proofs.«125857_j56255481643615_1_alg».proof.Proof.LibBlockSum

namespace Cert.Dice

open Finset

variable {M : Type*} [AddCommMonoid M]

/-- A function on the first `N` naturals, as a function on all of them: zero past the end. -/
def ext0 {N : ℕ} (g : Fin N → M) (K : ℕ) : M := if h : K < N then g ⟨K, h⟩ else 0

theorem ext0_of_lt {N : ℕ} (g : Fin N → M) (K : ℕ) (h : K < N) : ext0 g K = g ⟨K, h⟩ := dif_pos h

/-- Summing the extension over the first `N` naturals sums the function. -/
theorem sum_ext0 {N : ℕ} (g : Fin N → M) : ∑ K ∈ range N, ext0 g K = ∑ K : Fin N, g K := by
  rw [← Cert.BlockSum.sum_fin_eq_range N (ext0 g)]
  exact Finset.sum_congr rfl fun K _ => ext0_of_lt g K.val K.isLt

/-- The sum in `n` blocks of `b` places is the whole sum. -/
theorem sum_blocks (n b N : ℕ) (hN : n * b = N) (g : Fin N → M) :
    ∑ s ∈ range n, ∑ j : Fin b, ext0 g (b * s + j.val) = ∑ K : Fin N, g K := by
  subst hN
  rw [← sum_ext0 g, ← Cert.BlockSum.sum_range_blocks b (ext0 g) n]
  exact Finset.sum_congr rfl fun s _ => Cert.BlockSum.sum_fin_eq_range b (fun k => ext0 g (b * s + k))

end Cert.Dice
-- ==== Proof.Sums.lean ====
/-
  Each running column at the last point of a run, at the ideal values: the whole sum over the batch element's voxels.

  A run is the 16 points of one batch element q. The column restarts from the zero column at the run's first point, and
  every point adds its block's sum over 131072 voxels; so after the last point the column holds, at class r, zero plus
  the sum over the 16 blocks of the blocks' sums. Block s of batch element q is voxels 131072 · s … of the flattened
  arrays, and 16 · 131072 = 2097152: taken together the blocks' sums are the sum over all the batch element's voxels.
-/
import proofs.«125857_j56255481643615_1_alg».proof.Proof.Columns
import proofs.«125857_j56255481643615_1_alg».proof.Proof.Payload
import proofs.«125857_j56255481643615_1_alg».proof.Proof.Blocks
import proofs.«125857_j56255481643615_1_alg».proof.Proof.Regroup
import Idealize.ShloMosaic.Lib.Pipeline.Value

noncomputable section

open scoped BigOperators

namespace Cert.KernelIdeal.Sums

open Idealize.ShloMosaic Idealize.ShloMosaic.TcCoe Idealize.SL.Sem Idealize.ShloMosaic.ValueIdx
open Cert.KernelIdeal Cert.KernelIdeal.Gen Cert.KernelIdeal.Columns Cert.Dice

variable (m : (ℓ : Loc nD τ sig) → Buf (Elt Ideal) ℓ) (c : Dev nD)

/-! ## The running sum of volume times indicator -/

/-- What point `n` adds to the column at entry `i` (zero for a number that is no point). -/
def interTerm (n : ℕ) (i : S5x1.Idx) : EReal :=
  if h : n < cfg0.N then ∑ j : Fin 131072, Blocks.volBlk m c ⟨n, h⟩ (ix3 (0 : Fin 1) (i 0) j) * indSigned (i 0).val (Blocks.labBlk m c ⟨n, h⟩ (ix3 (0 : Fin 1) (0 : Fin 1) j)) else 0

theorem interStart_apply (n : ℕ) (h : n < cfg0.N) (i : S5x1.Idx) :
    interStart m c n h i = Ideal.ofBits .f32 0x00000000#32 + interTerm m c n i := by
  obtain ⟨r, z, rfl⟩ : ∃ (r : Fin 5) (z : Fin 1), i = ix2 r z := ⟨i 0, i 1, eq_ix2 i⟩
  unfold interStart interTerm
  rw [dif_pos h]
  exact Payload.inter_apply (Blocks.volBlk m c ⟨n, h⟩) (Blocks.labBlk m c ⟨n, h⟩) (k0_pay5 (F := Ideal)) r z

theorem interStep_apply (n : ℕ) (h : n < cfg0.N) (acc : Vec Ideal S5x1 .f32) (i : S5x1.Idx) :
    interStep m c n h acc i = acc i + interTerm m c n i := by
  obtain ⟨r, z, rfl⟩ : ∃ (r : Fin 5) (z : Fin 1), i = ix2 r z := ⟨i 0, i 1, eq_ix2 i⟩
  unfold interStep interTerm
  rw [dif_pos h]
  exact Payload.inter_apply (Blocks.volBlk m c ⟨n, h⟩) (Blocks.labBlk m c ⟨n, h⟩) acc r z

/-- Block `s` of batch element `q` adds, at class `r`, the sum over the block's voxels of the flattened arrays. -/
theorem interTerm_block (q : Fin 2) (s : ℕ) (hs : s < 16) (r : Fin 5) (z : Fin 1) :
    interTerm m c (16 * q.val + s) (ix2 r z)
      = ∑ j : Fin 131072, ext0 (fun K : Fin 2097152 => Blocks.volFlat m c (ix3 q r K) * indSigned r.val (Blocks.labFlat m c (ix3 q (0 : Fin 1) K))) (131072 * s + j.val) := by
  have hlt : 16 * q.val + s < cfg0.N := by rw [hN]; have := q.isLt; omega
  unfold interTerm
  rw [dif_pos hlt]
  refine Finset.sum_congr rfl fun j _ => ?_
  have hK : 131072 * s + j.val < 2097152 := by have := j.isLt; omega
  have hq : q.val = (⟨16 * q.val + s, hlt⟩ : Fin cfg0.N).val / 16 := by dsimp only; omega
  have hn : (⟨131072 * s + j.val, hK⟩ : Fin 2097152).val = 131072 * ((⟨16 * q.val + s, hlt⟩ : Fin cfg0.N).val % 16) + j.val := by
    dsimp only; rw [Nat.mul_add_mod, Nat.mod_eq_of_lt hs]
  rw [ext0_of_lt _ _ hK]
  show _ = Blocks.volFlat m c (ix3 q r ⟨131072 * s + j.val, hK⟩) * indSigned r.val (Blocks.labFlat m c (ix3 q (0 : Fin 1) ⟨131072 * s + j.val, hK⟩))
  rw [Blocks.vol_block m c ⟨16 * q.val + s, hlt⟩ r j q ⟨131072 * s + j.val, hK⟩ hq hn, Blocks.lab_block m c ⟨16 * q.val + s, hlt⟩ j q ⟨131072 * s + j.val, hK⟩ hq hn]

/-- Zero plus the whole sum over the voxels of batch element `q`, for class `r`. -/
def interAt (q : Fin 2) (r : Fin 5) : EReal :=
  Ideal.ofBits .f32 0x00000000#32 + ∑ K : Fin 2097152, Blocks.volFlat m c (ix3 q r K) * indSigned r.val (Blocks.labFlat m c (ix3 q (0 : Fin 1) K))

theorem interAt_def (q : Fin 2) (r : Fin 5) :
    interAt m c q r = Ideal.ofBits .f32 0x00000000#32 + ∑ K : Fin 2097152, Blocks.volFlat m c (ix3 q r K) * indSigned r.val (Blocks.labFlat m c (ix3 q (0 : Fin 1) K)) := rfl

/-- At the last point of batch element `q`'s run the column holds, at class `r`, that number. -/
theorem inter_last (t : Fin cfg0.N) (h15 : t.val % 16 = 15) (q : Fin 2) (hq : q.val = t.val / 16) (r : Fin 5) (z : Fin 1) :
    inter m c t.val t.isLt (ix2 r z) = interAt m c q r := by
  unfold interAt
  have h' : 16 * (t.val / 16) + t.val % 16 < cfg0.N := by rw [Nat.div_add_mod]; exact t.isLt
  rw [inter_fold m c t.val t.isLt h']
  rw [Pipeline.accAt_add_apply (ι := S5x1.Idx) (β := EReal) (interStart m c) (interStep m c)
    (fun _ => Ideal.ofBits .f32 0x00000000#32) (interTerm m c) (16 * (t.val / 16)) 15
    (fun h i => interStart_apply m c _ h i) (fun n h acc i _ _ => interStep_apply m c n h acc i)
    (t.val % 16) (by omega) h' (ix2 r z)]
  rw [h15, ← hq]
  refine congrArg (Ideal.ofBits .f32 0x00000000#32 + ·) ?_
  rw [← sum_blocks 16 131072 2097152 (by decide) (fun K : Fin 2097152 => Blocks.volFlat m c (ix3 q r K) * indSigned r.val (Blocks.labFlat m c (ix3 q (0 : Fin 1) K)))]
  exact Finset.sum_congr rfl fun s hs => interTerm_block m c q s (Finset.mem_range.mp hs) r z

/-! ## The running sum of the volume -/

/-- What point `n` adds to the column at entry `i` (zero for a number that is no point). -/
def volTerm (n : ℕ) (i : S5x1.Idx) : EReal :=
  if h : n < cfg0.N then ∑ j : Fin 131072, Blocks.volBlk m c ⟨n, h⟩ (ix3 (0 : Fin 1) (i 0) j) else 0

theorem volStart_apply (n : ℕ) (h : n < cfg0.N) (i : S5x1.Idx) :
    volStart m c n h i = Ideal.ofBits .f32 0x00000000#32 + volTerm m c n i := by
  obtain ⟨r, z, rfl⟩ : ∃ (r : Fin 5) (z : Fin 1), i = ix2 r z := ⟨i 0, i 1, eq_ix2 i⟩
  unfold volStart volTerm
  rw [dif_pos h]
  exact Payload.vol_apply (Blocks.volBlk m c ⟨n, h⟩) (k0_pay6 (F := Ideal)) r z

theorem volStep_apply (n : ℕ) (h : n < cfg0.N) (acc : Vec Ideal S5x1 .f32) (i : S5x1.Idx) :
    volStep m c n h acc i = acc i + volTerm m c n i := by
  obtain ⟨r, z, rfl⟩ : ∃ (r : Fin 5) (z : Fin 1), i = ix2 r z := ⟨i 0, i 1, eq_ix2 i⟩
  unfold volStep volTerm
  rw [dif_pos h]
  exact Payload.vol_apply (Blocks.volBlk m c ⟨n, h⟩) acc r z

/-- Block `s` of batch element `q` adds, at class `r`, the sum over the block's voxels of the flattened arrays. -/
theorem volTerm_block (q : Fin 2) (s : ℕ) (hs : s < 16) (r : Fin 5) (z : Fin 1) :
    volTerm m c (16 * q.val + s) (ix2 r z)
      = ∑ j : Fin 131072, ext0 (fun K : Fin 2097152 => Blocks.volFlat m c (ix3 q r K)) (131072 * s + j.val) := by
  have hlt : 16 * q.val + s < cfg0.N := by rw [hN]; have := q.isLt; omega
  unfold volTerm
  rw [dif_pos hlt]
  refine Finset.sum_congr rfl fun j _ => ?_
  have hK : 131072 * s + j.val < 2097152 := by have := j.isLt; omega
  have hq : q.val = (⟨16 * q.val + s, hlt⟩ : Fin cfg0.N).val / 16 := by dsimp only; omega
  have hn : (⟨131072 * s + j.val, hK⟩ : Fin 2097152).val = 131072 * ((⟨16 * q.val + s, hlt⟩ : Fin cfg0.N).val % 16) + j.val := by
    dsimp only; rw [Nat.mul_add_mod, Nat.mod_eq_of_lt hs]
  rw [ext0_of_lt _ _ hK]
  show _ = Blocks.volFlat m c (ix3 q r ⟨131072 * s + j.val, hK⟩)
  rw [Blocks.vol_block m c ⟨16 * q.val + s, hlt⟩ r j q ⟨131072 * s + j.val, hK⟩ hq hn]

/-- Zero plus the whole sum over the voxels of batch element `q`, for class `r`. -/
def volAt (q : Fin 2) (r : Fin 5) : EReal :=
  Ideal.ofBits .f32 0x00000000#32 + ∑ K : Fin 2097152, Blocks.volFlat m c (ix3 q r K)

theorem volAt_def (q : Fin 2) (r : Fin 5) :
    volAt m c q r = Ideal.ofBits .f32 0x00000000#32 + ∑ K : Fin 2097152, Blocks.volFlat m c (ix3 q r K) := rfl

/-- At the last point of batch element `q`'s run the column holds, at class `r`, that number. -/
theorem vol_last (t : Fin cfg0.N) (h15 : t.val % 16 = 15) (q : Fin 2) (hq : q.val = t.val / 16) (r : Fin 5) (z : Fin 1) :
    vol m c t.val t.isLt (ix2 r z) = volAt m c q r := by
  unfold volAt
  have h' : 16 * (t.val / 16) + t.val % 16 < cfg0.N := by rw [Nat.div_add_mod]; exact t.isLt
  rw [vol_fold m c t.val t.isLt h']
  rw [Pipeline.accAt_add_apply (ι := S5x1.Idx) (β := EReal) (volStart m c) (volStep m c)
    (fun _ => Ideal.ofBits .f32 0x00000000#32) (volTerm m c) (16 * (t.val / 16)) 15
    (fun h i => volStart_apply m c _ h i) (fun n h acc i _ _ => volStep_apply m c n h acc i)
    (t.val % 16) (by omega) h' (ix2 r z)]
  rw [h15, ← hq]
  refine congrArg (Ideal.ofBits .f32 0x00000000#32 + ·) ?_
  rw [← sum_blocks 16 131072 2097152 (by decide) (fun K : Fin 2097152 => Blocks.volFlat m c (ix3 q r K))]
  exact Finset.sum_congr rfl fun s hs => volTerm_block m c q s (Finset.mem_range.mp hs) r z

/-! ## The running count of voxels per class -/

/-- What point `n` adds to the column at entry `i` (zero for a number that is no point). -/
def countTerm (n : ℕ) (i : S5x1.Idx) : EReal :=
  if h : n < cfg0.N then ∑ j : Fin 131072, indSigned (i 0).val (Blocks.labBlk m c ⟨n, h⟩ (ix3 (0 : Fin 1) (0 : Fin 1) j)) else 0

theorem countStart_apply (n : ℕ) (h : n < cfg0.N) (i : S5x1.Idx) :
    countStart m c n h i = Ideal.ofBits .f32 0x00000000#32 + countTerm m c n i := by
  obtain ⟨r, z, rfl⟩ : ∃ (r : Fin 5) (z : Fin 1), i = ix2 r z := ⟨i 0, i 1, eq_ix2 i⟩
  unfold countStart countTerm
  rw [dif_pos h]
  exact Payload.count_apply (Blocks.labBlk m c ⟨n, h⟩) (k0_pay7 (F := Ideal)) r z

theorem countStep_apply (n : ℕ) (h : n < cfg0.N) (acc : Vec Ideal S5x1 .f32) (i : S5x1.Idx) :
    countStep m c n h acc i = acc i + countTerm m c n i := by
  obtain ⟨r, z, rfl⟩ : ∃ (r : Fin 5) (z : Fin 1), i = ix2 r z := ⟨i 0, i 1, eq_ix2 i⟩
  unfold countStep countTerm
  rw [dif_pos h]
  exact Payload.count_apply (Blocks.labBlk m c ⟨n, h⟩) acc r z

/-- Block `s` of batch element `q` adds, at class `r`, the sum over the block's voxels of the flattened arrays. -/
theorem countTerm_block (q : Fin 2) (s : ℕ) (hs : s < 16) (r : Fin 5) (z : Fin 1) :
    countTerm m c (16 * q.val + s) (ix2 r z)
      = ∑ j : Fin 131072, ext0 (fun K : Fin 2097152 => indSigned r.val (Blocks.labFlat m c (ix3 q (0 : Fin 1) K))) (131072 * s + j.val) := by
  have hlt : 16 * q.val + s < cfg0.N := by rw [hN]; have := q.isLt; omega
  unfold countTerm
  rw [dif_pos hlt]
  refine Finset.sum_congr rfl fun j _ => ?_
  have hK : 131072 * s + j.val < 2097152 := by have := j.isLt; omega
  have hq : q.val = (⟨16 * q.val + s, hlt⟩ : Fin cfg0.N).val / 16 := by dsimp only; omega
  have hn : (⟨131072 * s + j.val, hK⟩ : Fin 2097152).val = 131072 * ((⟨16 * q.val + s, hlt⟩ : Fin cfg0.N).val % 16) + j.val := by
    dsimp only; rw [Nat.mul_add_mod, Nat.mod_eq_of_lt hs]
  rw [ext0_of_lt _ _ hK]
  show _ = indSigned r.val (Blocks.labFlat m c (ix3 q (0 : Fin 1) ⟨131072 * s + j.val, hK⟩))
  rw [Blocks.lab_block m c ⟨16 * q.val + s, hlt⟩ j q ⟨131072 * s + j.val, hK⟩ hq hn]

/-- Zero plus the whole sum over the voxels of batch element `q`, for class `r`. -/
def countAt (q : Fin 2) (r : Fin 5) : EReal :=
  Ideal.ofBits .f32 0x00000000#32 + ∑ K : Fin 2097152, indSigned r.val (Blocks.labFlat m c (ix3 q (0 : Fin 1) K))

theorem countAt_def (q : Fin 2) (r : Fin 5) :
    countAt m c q r = Ideal.ofBits .f32 0x00000000#32 + ∑ K : Fin 2097152, indSigned r.val (Blocks.labFlat m c (ix3 q (0 : Fin 1) K)) := rfl

/-- At the last point of batch element `q`'s run the column holds, at class `r`, that number. -/
theorem count_last (t : Fin cfg0.N) (h15 : t.val % 16 = 15) (q : Fin 2) (hq : q.val = t.val / 16) (r : Fin 5) (z : Fin 1) :
    count m c t.val t.isLt (ix2 r z) = countAt m c q r := by
  unfold countAt
  have h' : 16 * (t.val / 16) + t.val % 16 < cfg0.N := by rw [Nat.div_add_mod]; exact t.isLt
  rw [count_fold m c t.val t.isLt h']
  rw [Pipeline.accAt_add_apply (ι := S5x1.Idx) (β := EReal) (countStart m c) (countStep m c)
    (fun _ => Ideal.ofBits .f32 0x00000000#32) (countTerm m c) (16 * (t.val / 16)) 15
    (fun h i => countStart_apply m c _ h i) (fun n h acc i _ _ => countStep_apply m c n h acc i)
    (t.val % 16) (by omega) h' (ix2 r z)]
  rw [h15, ← hq]
  refine congrArg (Ideal.ofBits .f32 0x00000000#32 + ·) ?_
  rw [← sum_blocks 16 131072 2097152 (by decide) (fun K : Fin 2097152 => indSigned r.val (Blocks.labFlat m c (ix3 q (0 : Fin 1) K)))]
  exact Finset.sum_congr rfl fun s hs => countTerm_block m c q s (Finset.mem_range.mp hs) r z

/-! The three whole sums are from here on cited by name and opened only through their defining equations: a sum over
    two million voxels is never to be evaluated. -/
attribute [irreducible] interAt volAt countAt

end Cert.KernelIdeal.Sums

end
-- ==== Proof.Arrays.lean ====
/-
  The three result arrays of the region, whole.

  Each result array is [2, 5, 1]: one number per batch element q and class r. Its block at grid point t is batch
  element t / 16's five numbers, and the block is written back only at the last point of that batch element's run
  (t % 16 = 15), where it is a copy of the running column — zero plus the whole sum over the batch element's voxels.
  The two flushing points 15 and 31 cover the array: entry (q, r, 0) is in the block of point 16 · q + 15. So each
  result array ends holding, at (q, r, 0), zero plus the sum over all 2097152 voxels of batch element q.
-/
import proofs.«125857_j56255481643615_1_alg».proof.Proof.Sums
import Idealize.ShloMosaic.Lib.Pipeline.Value

noncomputable section

open scoped BigOperators

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Columns Cert.KernelIdeal.Sums Cert.Dice

variable (m : (ℓ : Loc nD τ sig) → Buf (Elt Ideal) ℓ) (c : Dev nD)

/-! ## The sum of volume times indicator (result 0) -/

/-- The result array: at (q, r, 0) zero plus the whole sum. -/
def interArr : S2x5x1.Idx → EReal := fun i => interAt m c (i 0) (i 1)

/-- What a flushing point writes back is its block of the result array. -/
theorem flushed2_eq (t : Fin cfg0.N) (hf : (cfg0.win 2).flush t = true) :
    (dats m 0 c).flushed 2 t = ((cfg0.win 2).blk t).view.read (Elt Ideal) (interArr m c) := by
  have h15 : t.val % 16 = 15 := (flush0_2 t).mp hf
  have h0 : ¬t.val % 16 = 0 := by omega
  have ht32 : t.val < 32 := lt_of_lt_of_eq t.isLt hN
  have hq : t.val / 16 < 2 := by omega
  show (cfg0.win 2).cut (grid0.coords t) ((dats m 0 c).after 2 t) = _
  rw [after0_2]
  refine (out2_last m c t h0 h15).trans ?_
  funext y
  have hy0 : (y 0).val < 1 := (y 0).isLt
  have hy1 : (y 1).val < 5 := (y 1).isLt
  have hy2 : (y 2).val < 1 := (y 2).isLt
  obtain ⟨-, -, -, -, -, -, e0, e1, e2, -⟩ := Blocks.idx_facts t
  have eq0 : (((cfg0.win 2).blk t).view.emb y) 0 = (⟨t.val / 16, hq⟩ : Fin 2) :=
    Fin.ext (by show win0_2.index t (0 : Fin 3) * 1 + 1 * (y 0).val = t.val / 16; omega)
  have eq1 : (((cfg0.win 2).blk t).view.emb y) 1 = (⟨(y 1).val, hy1⟩ : Fin 5) :=
    Fin.ext (by show win0_2.index t (1 : Fin 3) * 5 + 1 * (y 1).val = (y 1).val; omega)
  rw [View.read_apply]
  unfold interArr
  rw [eq0, eq1]
  have ey : y = ix3 (⟨(y 0).val, hy0⟩ : Fin 1) (⟨(y 1).val, hy1⟩ : Fin 5) (⟨(y 2).val, hy2⟩ : Fin 1) :=
    funext fun a => Fin.ext (by match a with | ⟨0, _⟩ => rfl | ⟨1, _⟩ => rfl | ⟨2, _⟩ => rfl)
  refine (congrArg (k0_pay2 (F := Ideal) (inter m c t.val t.isLt)) ey).trans ?_
  refine (Payload.out2_apply _ _ _ _).trans ?_
  exact (inter_last m c t h15 ⟨t.val / 16, hq⟩ rfl _ _).trans (cast_eq _ _).symm

/-- An entry of the result array is in point `t`'s block iff each coordinate is in the block's range on its axis. -/
theorem mem_blk2 (t : Fin cfg0.N) (i : S2x5x1.Idx) :
    i ∈ ((cfg0.win 2).blk t).view.set ↔ ∀ a : Fin 3, win0_2.index t a * S1x5x1.size a ≤ (i a).val ∧ (i a).val < win0_2.index t a * S1x5x1.size a + S1x5x1.size a := by
  show i ∈ ((View.whole main_v2_0).slice (win0_2.rect t)).set ↔ _
  rw [View.set_slice_whole, Rect.mem_set_unit]
  exact Iff.rfl

/-- Every entry is in the block of the last point of its batch element's run. -/
theorem cover2 (i : S2x5x1.Idx) : ∃ t : Fin cfg0.N, (cfg0.win 2).flush t = true ∧ i ∈ ((cfg0.win 2).blk t).view.set := by
  have hi0 : (i 0).val < 2 := (i 0).isLt
  have hi1 : (i 1).val < 5 := (i 1).isLt
  have hi2 : (i 2).val < 1 := (i 2).isLt
  have hlt : 16 * (i 0).val + 15 < cfg0.N := lt_of_lt_of_eq (by omega : 16 * (i 0).val + 15 < 32) hN.symm
  refine ⟨⟨16 * (i 0).val + 15, hlt⟩, (flush0_2 _).mpr (by dsimp only; omega), ?_⟩
  rw [mem_blk2]
  obtain ⟨-, -, -, -, -, -, e0, e1, e2, -⟩ := Blocks.idx_facts ⟨16 * (i 0).val + 15, hlt⟩
  dsimp only at e0 e1 e2
  intro a
  match a with
  | ⟨0, _⟩ => show win0_2.index ⟨16 * (i 0).val + 15, hlt⟩ (0 : Fin 3) * 1 ≤ (i 0).val ∧ (i 0).val < win0_2.index ⟨16 * (i 0).val + 15, hlt⟩ (0 : Fin 3) * 1 + 1; omega
  | ⟨1, _⟩ => show win0_2.index ⟨16 * (i 0).val + 15, hlt⟩ (1 : Fin 3) * 5 ≤ (i 1).val ∧ (i 1).val < win0_2.index ⟨16 * (i 0).val + 15, hlt⟩ (1 : Fin 3) * 5 + 5; omega
  | ⟨2, _⟩ => show win0_2.index ⟨16 * (i 0).val + 15, hlt⟩ (2 : Fin 3) * 1 ≤ (i 2).val ∧ (i 2).val < win0_2.index ⟨16 * (i 0).val + 15, hlt⟩ (2 : Fin 3) * 1 + 1; omega

/-- The result array after the run. -/
theorem final2 : (dats m 0 c).arrAt 2 cfg0.N = interArr m c :=
  (dats m 0 c).arrAt_eq_of_cover 2 (interArr m c) (flushed2_eq m c) (cover2)

/-! ## The sum of the volume (result 1) -/

/-- The result array: at (q, r, 0) that number. -/
def volArr : S2x5x1.Idx → EReal := fun i => volAt m c (i 0) (i 1)

/-- What a flushing point writes back is its block of the result array. -/
theorem flushed3_eq (t : Fin cfg0.N) (hf : (cfg0.win 3).flush t = true) :
    (dats m 0 c).flushed 3 t = ((cfg0.win 3).blk t).view.read (Elt Ideal) (volArr m c) := by
  have h15 : t.val % 16 = 15 := (flush0_3 t).mp hf
  have h0 : ¬t.val % 16 = 0 := by omega
  have ht32 : t.val < 32 := lt_of_lt_of_eq t.isLt hN
  have hq : t.val / 16 < 2 := by omega
  show (cfg0.win 3).cut (grid0.coords t) ((dats m 0 c).after 3 t) = _
  rw [after0_3]
  refine (out3_last m c t h0 h15).trans ?_
  funext y
  have hy0 : (y 0).val < 1 := (y 0).isLt
  have hy1 : (y 1).val < 5 := (y 1).isLt
  have hy2 : (y 2).val < 1 := (y 2).isLt
  obtain ⟨-, -, -, -, -, -, -, -, -, e0, e1, e2, -⟩ := Blocks.idx_facts t
  have eq0 : (((cfg0.win 3).blk t).view.emb y) 0 = (⟨t.val / 16, hq⟩ : Fin 2) :=
    Fin.ext (by show win0_3.index t (0 : Fin 3) * 1 + 1 * (y 0).val = t.val / 16; omega)
  have eq1 : (((cfg0.win 3).blk t).view.emb y) 1 = (⟨(y 1).val, hy1⟩ : Fin 5) :=
    Fin.ext (by show win0_3.index t (1 : Fin 3) * 5 + 1 * (y 1).val = (y 1).val; omega)
  rw [View.read_apply]
  unfold volArr
  rw [eq0, eq1]
  have ey : y = ix3 (⟨(y 0).val, hy0⟩ : Fin 1) (⟨(y 1).val, hy1⟩ : Fin 5) (⟨(y 2).val, hy2⟩ : Fin 1) :=
    funext fun a => Fin.ext (by match a with | ⟨0, _⟩ => rfl | ⟨1, _⟩ => rfl | ⟨2, _⟩ => rfl)
  refine (congrArg (k0_pay3 (F := Ideal) (vol m c t.val t.isLt)) ey).trans ?_
  refine (Payload.out3_apply _ _ _ _).trans ?_
  exact (vol_last m c t h15 ⟨t.val / 16, hq⟩ rfl _ _).trans (cast_eq _ _).symm

/-- An entry of the result array is in point `t`'s block iff each coordinate is in the block's range on its axis. -/
theorem mem_blk3 (t : Fin cfg0.N) (i : S2x5x1.Idx) :
    i ∈ ((cfg0.win 3).blk t).view.set ↔ ∀ a : Fin 3, win0_3.index t a * S1x5x1.size a ≤ (i a).val ∧ (i a).val < win0_3.index t a * S1x5x1.size a + S1x5x1.size a := by
  show i ∈ ((View.whole main_v2_1).slice (win0_3.rect t)).set ↔ _
  rw [View.set_slice_whole, Rect.mem_set_unit]
  exact Iff.rfl

/-- Every entry is in the block of the last point of its batch element's run. -/
theorem cover3 (i : S2x5x1.Idx) : ∃ t : Fin cfg0.N, (cfg0.win 3).flush t = true ∧ i ∈ ((cfg0.win 3).blk t).view.set := by
  have hi0 : (i 0).val < 2 := (i 0).isLt
  have hi1 : (i 1).val < 5 := (i 1).isLt
  have hi2 : (i 2).val < 1 := (i 2).isLt
  have hlt : 16 * (i 0).val + 15 < cfg0.N := lt_of_lt_of_eq (by omega : 16 * (i 0).val + 15 < 32) hN.symm
  refine ⟨⟨16 * (i 0).val + 15, hlt⟩, (flush0_3 _).mpr (by dsimp only; omega), ?_⟩
  rw [mem_blk3]
  obtain ⟨-, -, -, -, -, -, -, -, -, e0, e1, e2, -⟩ := Blocks.idx_facts ⟨16 * (i 0).val + 15, hlt⟩
  dsimp only at e0 e1 e2
  intro a
  match a with
  | ⟨0, _⟩ => show win0_3.index ⟨16 * (i 0).val + 15, hlt⟩ (0 : Fin 3) * 1 ≤ (i 0).val ∧ (i 0).val < win0_3.index ⟨16 * (i 0).val + 15, hlt⟩ (0 : Fin 3) * 1 + 1; omega
  | ⟨1, _⟩ => show win0_3.index ⟨16 * (i 0).val + 15, hlt⟩ (1 : Fin 3) * 5 ≤ (i 1).val ∧ (i 1).val < win0_3.index ⟨16 * (i 0).val + 15, hlt⟩ (1 : Fin 3) * 5 + 5; omega
  | ⟨2, _⟩ => show win0_3.index ⟨16 * (i 0).val + 15, hlt⟩ (2 : Fin 3) * 1 ≤ (i 2).val ∧ (i 2).val < win0_3.index ⟨16 * (i 0).val + 15, hlt⟩ (2 : Fin 3) * 1 + 1; omega

/-- The result array after the run. -/
theorem final3 : (dats m 0 c).arrAt 3 cfg0.N = volArr m c :=
  (dats m 0 c).arrAt_eq_of_cover 3 (volArr m c) (flushed3_eq m c) (cover3)

/-! ## The count of voxels per class (result 2) -/

/-- The result array: at (q, r, 0) that number. -/
def countArr : S2x5x1.Idx → EReal := fun i => countAt m c (i 0) (i 1)

/-- What a flushing point writes back is its block of the result array. -/
theorem flushed4_eq (t : Fin cfg0.N) (hf : (cfg0.win 4).flush t = true) :
    (dats m 0 c).flushed 4 t = ((cfg0.win 4).blk t).view.read (Elt Ideal) (countArr m c) := by
  have h15 : t.val % 16 = 15 := (flush0_4 t).mp hf
  have h0 : ¬t.val % 16 = 0 := by omega
  have ht32 : t.val < 32 := lt_of_lt_of_eq t.isLt hN
  have hq : t.val / 16 < 2 := by omega
  show (cfg0.win 4).cut (grid0.coords t) ((dats m 0 c).after 4 t) = _
  rw [after0_4]
  refine (out4_last m c t h0 h15).trans ?_
  funext y
  have hy0 : (y 0).val < 1 := (y 0).isLt
  have hy1 : (y 1).val < 5 := (y 1).isLt
  have hy2 : (y 2).val < 1 := (y 2).isLt
  obtain ⟨-, -, -, -, -, -, -, -, -, -, -, -, e0, e1, e2⟩ := Blocks.idx_facts t
  have eq0 : (((cfg0.win 4).blk t).view.emb y) 0 = (⟨t.val / 16, hq⟩ : Fin 2) :=
    Fin.ext (by show win0_4.index t (0 : Fin 3) * 1 + 1 * (y 0).val = t.val / 16; omega)
  have eq1 : (((cfg0.win 4).blk t).view.emb y) 1 = (⟨(y 1).val, hy1⟩ : Fin 5) :=
    Fin.ext (by show win0_4.index t (1 : Fin 3) * 5 + 1 * (y 1).val = (y 1).val; omega)
  rw [View.read_apply]
  unfold countArr
  rw [eq0, eq1]
  have ey : y = ix3 (⟨(y 0).val, hy0⟩ : Fin 1) (⟨(y 1).val, hy1⟩ : Fin 5) (⟨(y 2).val, hy2⟩ : Fin 1) :=
    funext fun a => Fin.ext (by match a with | ⟨0, _⟩ => rfl | ⟨1, _⟩ => rfl | ⟨2, _⟩ => rfl)
  refine (congrArg (k0_pay4 (F := Ideal) (count m c t.val t.isLt)) ey).trans ?_
  refine (Payload.out4_apply _ _ _ _).trans ?_
  exact (count_last m c t h15 ⟨t.val / 16, hq⟩ rfl _ _).trans (cast_eq _ _).symm

/-- An entry of the result array is in point `t`'s block iff each coordinate is in the block's range on its axis. -/
theorem mem_blk4 (t : Fin cfg0.N) (i : S2x5x1.Idx) :
    i ∈ ((cfg0.win 4).blk t).view.set ↔ ∀ a : Fin 3, win0_4.index t a * S1x5x1.size a ≤ (i a).val ∧ (i a).val < win0_4.index t a * S1x5x1.size a + S1x5x1.size a := by
  show i ∈ ((View.whole main_v2_2).slice (win0_4.rect t)).set ↔ _
  rw [View.set_slice_whole, Rect.mem_set_unit]
  exact Iff.rfl

/-- Every entry is in the block of the last point of its batch element's run. -/
theorem cover4 (i : S2x5x1.Idx) : ∃ t : Fin cfg0.N, (cfg0.win 4).flush t = true ∧ i ∈ ((cfg0.win 4).blk t).view.set := by
  have hi0 : (i 0).val < 2 := (i 0).isLt
  have hi1 : (i 1).val < 5 := (i 1).isLt
  have hi2 : (i 2).val < 1 := (i 2).isLt
  have hlt : 16 * (i 0).val + 15 < cfg0.N := lt_of_lt_of_eq (by omega : 16 * (i 0).val + 15 < 32) hN.symm
  refine ⟨⟨16 * (i 0).val + 15, hlt⟩, (flush0_4 _).mpr (by dsimp only; omega), ?_⟩
  rw [mem_blk4]
  obtain ⟨-, -, -, -, -, -, -, -, -, -, -, -, e0, e1, e2⟩ := Blocks.idx_facts ⟨16 * (i 0).val + 15, hlt⟩
  dsimp only at e0 e1 e2
  intro a
  match a with
  | ⟨0, _⟩ => show win0_4.index ⟨16 * (i 0).val + 15, hlt⟩ (0 : Fin 3) * 1 ≤ (i 0).val ∧ (i 0).val < win0_4.index ⟨16 * (i 0).val + 15, hlt⟩ (0 : Fin 3) * 1 + 1; omega
  | ⟨1, _⟩ => show win0_4.index ⟨16 * (i 0).val + 15, hlt⟩ (1 : Fin 3) * 5 ≤ (i 1).val ∧ (i 1).val < win0_4.index ⟨16 * (i 0).val + 15, hlt⟩ (1 : Fin 3) * 5 + 5; omega
  | ⟨2, _⟩ => show win0_4.index ⟨16 * (i 0).val + 15, hlt⟩ (2 : Fin 3) * 1 ≤ (i 2).val ∧ (i 2).val < win0_4.index ⟨16 * (i 0).val + 15, hlt⟩ (2 : Fin 3) * 1 + 1; omega

/-- The result array after the run. -/
theorem final4 : (dats m 0 c).arrAt 4 cfg0.N = countArr m c :=
  (dats m 0 c).arrAt_eq_of_cover 4 (countArr m c) (flushed4_eq m c) (cover4)

end Cert.KernelIdeal.Arrays

end
-- ==== Proof.Closing.lean ====
/-
  The closing arithmetic both programs end with.

  From three 2 × 5 tables — for every batch element and class, `I` the sum of volume times indicator, `X` the sum of
  the volume and `O` the count of voxels of the class — both programs compute, entry by entry, the score
  (2·I + ε) / ((X + O) + ε), add up the ten scores from zero, divide by ten and subtract the quotient from one. The
  constants are the same words in both programs (2, ε twice, 0, 10, 1), so they are never evaluated: the closing
  arithmetic is ONE function of the three tables, and the two results agree as soon as the tables do.
-/
import Idealize.ShloMosaic.PureOps

noncomputable section

namespace Cert.Dice

open Idealize.ShloMosaic

variable {F : FTy → Type} [FloatOps F]

/-- The scalar shape and the shape of the 2 × 5 tables. -/
abbrev Sc : Shape := ⟨0, ![]⟩
abbrev Tb : Shape := ⟨2, ![2, 5]⟩

/-- One minus the mean over the ten (batch element, class) pairs of (2·I + ε) / ((X + O) + ε). -/
def closing (hb : Sc.BroadcastsInDim Tb (![] : Fin 0 → Fin Tb.rank)) (hr : Tb.ReducesTo [0, 1] Sc) (h0 : 0 < Sc.numel)
    (I X O : FVec F Tb .f32) : FVec F Sc .f32 :=
  subf (constant Sc .f32 0x3F800000#32)
    (Host.divf
      (Host.reduceAdd
        (Host.divf
          (addf (mulf (broadcastInDim Tb ![] hb (constant Sc .f32 0x40000000#32)) I)
            (broadcastInDim Tb ![] hb (constant Sc .f32 0x3727C5AC#32)))
          (addf (addf X O) (broadcastInDim Tb ![] hb (constant Sc .f32 0x3727C5AC#32))))
        (constant Sc .f32 0x00000000#32) hr h0)
      (constant Sc .f32 0x41200000#32))

end Cert.Dice

end
-- ==== Proof.Tail.lean ====
/-
  After the region: the program's result from the three result arrays.

  The lines after the region reshape each [2, 5, 1] result array to a 2 × 5 table and apply the closing arithmetic to
  the three tables. The region leaves each result array at what its flushing points wrote; every other buffer is as the
  region found it. So the program's result is the closing arithmetic of the three reshaped result arrays.
-/
import proofs.«125857_j56255481643615_1_alg».proof.Proof.Gen.KernelIdeal.Frame
import proofs.«125857_j56255481643615_1_alg».proof.Proof.Closing
import Idealize.ShloMosaic.Lib.Pipeline.Value
import Idealize.ShloMosaic.Lib.StableHlo.Run

noncomputable section

namespace Cert.KernelIdeal.Tail

open Idealize.ShloMosaic Idealize.ShloMosaic.TcCoe Idealize.SL.Sem
open Cert.KernelIdeal Cert.KernelIdeal.Gen Cert.Dice

variable {F : FTy → Type} [FloatOps F]
variable (m : (ℓ : Loc nD τ sig) → Buf (Elt F) ℓ) (c : Dev nD)

/-- A [2, 5, 1] result array as a 2 × 5 table. -/
abbrev table (A : S2x5x1.Idx → Elt F .f32) : FVec F S2x5 .f32 := shapeCast S2x5 A shapeCasts_S2x5x1_S2x5

/-- The program's result after the lines that follow the region. -/
theorem result_eq :
    Pipeline.afterTail₀ cfgs (dats m) 0 (V0 m) [hostOps1] c main_v16
      = closing bcast_S_S2x5 reducesTo_S2x5_S_d0_1 h_S_
          (table ((dats m 0 c).arrAt 2 cfg0.N)) (table ((dats m 0 c).arrAt 3 cfg0.N)) (table ((dats m 0 c).arrAt 4 cfg0.N)) := by
  unfold Pipeline.afterTail₀
  show StableHlo.after hostOps1 _ (Proc.devRef .tc main_v16) = _
  after_results
  have e2 := Pipeline.withArrays_arr spec0 launch0.win.arr_inj c (V0 m c) (fun w => (dats m 0 c).arrAt w cfg0.N) 2
  have e3 := Pipeline.withArrays_arr spec0 launch0.win.arr_inj c (V0 m c) (fun w => (dats m 0 c).arrAt w cfg0.N) 3
  have e4 := Pipeline.withArrays_arr spec0 launch0.win.arr_inj c (V0 m c) (fun w => (dats m 0 c).arrAt w cfg0.N) 4
  show closing bcast_S_S2x5 reducesTo_S2x5_S_d0_1 h_S_
      (table (Pipeline.withArrays spec0 c (V0 m c) (fun w => (dats m 0 c).arrAt w cfg0.N) (Proc.devRef .tc (Pipeline.arrRef spec0 2))))
      (table (Pipeline.withArrays spec0 c (V0 m c) (fun w => (dats m 0 c).arrAt w cfg0.N) (Proc.devRef .tc (Pipeline.arrRef spec0 3))))
      (table (Pipeline.withArrays spec0 c (V0 m c) (fun w => (dats m 0 c).arrAt w cfg0.N) (Proc.devRef .tc (Pipeline.arrRef spec0 4)))) = _
  rw [e2, e3, e4]

end Cert.KernelIdeal.Tail

end
-- ==== Proof.KernelRun.lean ====
/-
  The idealized kernel's run, read: its result is the closing arithmetic of the three whole-sum tables.
-/
import proofs.«125857_j56255481643615_1_alg».proof.Proof.Arrays
import proofs.«125857_j56255481643615_1_alg».proof.Proof.Tail

noncomputable section

namespace Cert.KernelIdeal.Run

open Idealize.ShloMosaic Idealize.ShloMosaic.TcCoe Idealize.SL.Sem
open Cert.KernelIdeal Cert.KernelIdeal.Gen Cert.Dice

variable (m : (ℓ : Loc nD τ sig) → Buf (Elt Ideal) ℓ) (ρ : Dev nD → PrngReg)

/-- The result on core `c`: the closing arithmetic of the tables of whole sums. -/
def result (c : Dev nD) : Buf (Elt Ideal) ((c.tc : Thread nD τ).loc main_v16) :=
  closing (F := Ideal) bcast_S_S2x5 reducesTo_S2x5_S_d0_1 h_S_
    (Tail.table (F := Ideal) (Arrays.interArr m c)) (Tail.table (F := Ideal) (Arrays.volArr m c))
    (Tail.table (F := Ideal) (Arrays.countArr m c))

/-- Every weakly fair execution of the idealized kernel terminates with the result at that value and the arguments
    unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v16 (Pipeline.mem_restRefs_of main_v16 (by decide) (by decide))).trans
        ((Tail.result_eq m c).trans (by unfold result; rw [Arrays.final2, Arrays.final3, Arrays.final4])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Run

end
-- ==== Proof.RefRead.lean ====
/-
  The reference's three tables read at (batch element q, class r), and its result as the closing arithmetic of them.

  The reference flattens the volume to [2, 5, 2097152] and the labels to [2, 2097152], spreads the labels over the five
  classes and the class numbers 0..4 over batch elements and voxels, compares, converts the bit to a number and takes
  three sums along the voxels, each started from the number whose word is all zeros: of volume times indicator, of the
  volume, and of the indicator. At (q, r) each is that zero plus a sum over the 2097152 voxels k of, respectively,
  `x q r k * [label q k = r]`, `x q r k` and `[label q k = r]`.
-/
import proofs.«125857_j56255481643615_1_alg».proof.Proof.Gen.ReferenceIdeal.Read
import proofs.«125857_j56255481643615_1_alg».proof.Proof.Indicator
import proofs.«125857_j56255481643615_1_alg».proof.Proof.Closing
import Idealize.ShloMosaic.Lib.ValueIdx
import Idealize.ShloMosaic.PureOps.Ideal.Laws

noncomputable section

open scoped BigOperators

namespace Cert.Dice.Ref

open Idealize.ShloMosaic Idealize.ShloMosaic.ValueIdx Cert.ReferenceIdeal Cert.ReferenceIdeal.Gen Cert.ReferenceIdeal.Read Cert.Dice

variable (x0 : (⟨S2x5x128x128x128, .f32⟩ : BufTy).Contents (Elt Ideal)) (x1 : (⟨S2x128x128x128, .i32⟩ : BufTy).Contents (Elt Ideal))

/-- The index the three sums read their operand at, by coordinates. -/
theorem idx10 (q : Fin 2) (r : Fin 5) (k : Fin 2097152) : idx_main_v10 (ix2 q r) k = ix3 q r k :=
  funext fun a => Fin.ext (by match a with | ⟨0, _⟩ => rfl | ⟨1, _⟩ => rfl | ⟨2, _⟩ => rfl)
theorem idx11 (q : Fin 2) (r : Fin 5) (k : Fin 2097152) : idx_main_v11 (ix2 q r) k = ix3 q r k :=
  funext fun a => Fin.ext (by match a with | ⟨0, _⟩ => rfl | ⟨1, _⟩ => rfl | ⟨2, _⟩ => rfl)
theorem idx12 (q : Fin 2) (r : Fin 5) (k : Fin 2097152) : idx_main_v12 (ix2 q r) k = ix3 q r k :=
  funext fun a => Fin.ext (by match a with | ⟨0, _⟩ => rfl | ⟨1, _⟩ => rfl | ⟨2, _⟩ => rfl)

/-- Spreading the labels over the classes does not move the (batch element, voxel) coordinates. -/
theorem idx_label (q : Fin 2) (r : Fin 5) (k : Fin 2097152) : idx_main_v2 (idx_main_v5 (ix3 q r k)) = ix2 q k :=
  funext fun a => Fin.ext (by match a with | ⟨0, _⟩ => rfl | ⟨1, _⟩ => rfl)

/-- The reference's indicator at (q, r, k): the label of voxel k of batch element q compared with the class number r,
    the bit read unsigned. -/
theorem hot_apply (q : Fin 2) (r : Fin 5) (k : Fin 2097152) :
    val_main_v8 (F := Ideal) x1 (ix3 q r k) = indUnsigned r.val (val_main_v1 (F := Ideal) x1 (ix2 q k)) := by
  rw [val_main_v8_apply, val_main_v7_apply, val_main_v5_apply, val_main_v2_apply, val_main_v6_apply, val_main_v4_apply,
    val_main_v3_apply, idx_label]
  rfl

/-- The sum of volume times indicator, at (q, r). -/
theorem inter_apply (q : Fin 2) (r : Fin 5) :
    val_main_v10 (F := Ideal) x0 x1 (ix2 q r)
      = Ideal.ofBits .f32 0x00000000#32
        + ∑ k : Fin 2097152, val_main_v0 (F := Ideal) x0 (ix3 q r k) * indUnsigned r.val (val_main_v1 (F := Ideal) x1 (ix2 q k)) := by
  rw [val_main_v10_apply]
  refine congrArg₂ (· + ·) rfl (Finset.sum_congr rfl fun k _ => ?_)
  rw [idx10, val_main_v9_apply, hot_apply]
  rfl

/-- The sum of the volume, at (q, r). -/
theorem vol_apply (q : Fin 2) (r : Fin 5) :
    val_main_v11 (F := Ideal) x0 (ix2 q r)
      = Ideal.ofBits .f32 0x00000000#32 + ∑ k : Fin 2097152, val_main_v0 (F := Ideal) x0 (ix3 q r k) := by
  rw [val_main_v11_apply]
  refine congrArg₂ (· + ·) rfl (Finset.sum_congr rfl fun k _ => ?_)
  rw [idx11]

/-- The count of voxels of class r, at (q, r). -/
theorem count_apply (q : Fin 2) (r : Fin 5) :
    val_main_v12 (F := Ideal) x1 (ix2 q r)
      = Ideal.ofBits .f32 0x00000000#32 + ∑ k : Fin 2097152, indUnsigned r.val (val_main_v1 (F := Ideal) x1 (ix2 q k)) := by
  rw [val_main_v12_apply]
  refine congrArg₂ (· + ·) rfl (Finset.sum_congr rfl fun k _ => ?_)
  rw [idx12, hot_apply]

/-- The reference's result is the closing arithmetic of its three tables. -/
theorem result_eq :
    val_main_v23 (F := Ideal) x0 x1
      = closing (F := Ideal) bcast_S_S2x5 reducesTo_S2x5_S_d0_1 h_S_
          (val_main_v10 (F := Ideal) x0 x1) (val_main_v11 (F := Ideal) x0) (val_main_v12 (F := Ideal) x1) := rfl

end Cert.Dice.Ref

end
-- ==== Proof.Bridge.lean ====
/-
  The kernel's three tables are the reference's, entry by entry.

  Both programs flatten the volume the same way, so their flattened volumes are one array. The kernel flattens the
  labels to [2, 1, 2097152] and the reference to [2, 2097152]: entry (q, 0, k) of the one and (q, k) of the other sit at
  the same row-major place 2097152 · q + k of the label argument. The two spellings of the class indicator are one
  number. So at every (batch element q, class r) the kernel's zero-plus-whole-sum is the reference's zero-plus-sum, term
  by term, for each of the three tables.
-/
import proofs.«125857_j56255481643615_1_alg».proof.Proof.KernelRun
import proofs.«125857_j56255481643615_1_alg».proof.Proof.RefRead

noncomputable section

open scoped BigOperators

namespace Cert.Dice.Bridge

open Idealize.ShloMosaic Idealize.ShloMosaic.TcCoe Idealize.SL.Sem Idealize.ShloMosaic.ValueIdx
open Cert.Dice

variable (m : (ℓ : Loc Cert.KernelIdeal.nD Cert.KernelIdeal.τ Cert.KernelIdeal.sig) → Buf (Elt Ideal) ℓ) (c : Dev Cert.KernelIdeal.nD)

/-- The argument arrays on core `c`. -/
abbrev volArg := m ((c.tc : Thread Cert.KernelIdeal.nD Cert.KernelIdeal.τ).loc Cert.KernelIdeal.main_arg0)
abbrev labArg := m ((c.tc : Thread Cert.KernelIdeal.nD Cert.KernelIdeal.τ).loc Cert.KernelIdeal.main_arg1)

/-- The flattened volumes agree. -/
theorem vol_eq (q : Fin 2) (r : Fin 5) (K : Fin 2097152) :
    Cert.KernelIdeal.Blocks.volFlat m c (ix3 q r K) = Cert.ReferenceIdeal.Read.val_main_v0 (F := Ideal) (volArg m c) (ix3 q r K) := by
  rw [Cert.KernelIdeal.Blocks.V_vol]
  rfl

/-- The flattened labels agree: (q, 0, k) of the kernel's and (q, k) of the reference's are one place of the argument. -/
theorem lab_eq (q : Fin 2) (K : Fin 2097152) :
    Cert.KernelIdeal.Blocks.labFlat m c (ix3 q (0 : Fin 1) K) = Cert.ReferenceIdeal.Read.val_main_v1 (F := Ideal) (labArg m c) (ix2 q K) := by
  rw [Cert.KernelIdeal.Blocks.V_lab, Cert.ReferenceIdeal.Read.val_main_v1_apply]
  refine shapeCast_apply _ _ (ix3 q (0 : Fin 1) K) (Cert.ReferenceIdeal.Read.idx_main_v1 (ix2 q K)) ?_
  rewrite [Shape.rowMajor_val_four, Shape.rowMajor_val_three]
  have hq : q.val < 2 := q.isLt
  have hK : K.val < 2097152 := K.isLt
  show (((q.val * 2097152 + K.val) / 2097152 * 128 + (q.val * 2097152 + K.val) / 16384 % 128) * 128 + (q.val * 2097152 + K.val) / 128 % 128) * 128 + (q.val * 2097152 + K.val) % 128 = (q.val * 1 + 0) * 2097152 + K.val
  omega

/-- A [2, 5, 1] array as a 2 × 5 table reads, at (q, r), the array at (q, r, 0). -/
theorem table_apply (A : Cert.KernelIdeal.S2x5x1.Idx → EReal) (q : Fin 2) (r : Fin 5) :
    Cert.KernelIdeal.Tail.table (F := Ideal) A (ix2 q r) = A (ix3 q r (0 : Fin 1)) := by
  refine shapeCast_apply A _ (ix2 q r) (ix3 q r (0 : Fin 1)) ?_
  rw [Shape.rowMajor_val_three, Shape.rowMajor_val_two]
  show (q.val * 5 + r.val) * 1 + 0 = q.val * 5 + r.val
  omega

theorem inter_table :
    Cert.KernelIdeal.Tail.table (F := Ideal) (Cert.KernelIdeal.Arrays.interArr m c)
      = Cert.ReferenceIdeal.Read.val_main_v10 (F := Ideal) (volArg m c) (labArg m c) := by
  funext i
  obtain ⟨q, r, rfl⟩ : ∃ (q : Fin 2) (r : Fin 5), i = ix2 q r := ⟨i 0, i 1, eq_ix2 i⟩
  rw [table_apply, Cert.Dice.Ref.inter_apply]
  unfold Cert.KernelIdeal.Arrays.interArr
  show Cert.KernelIdeal.Sums.interAt m c q r = _
  rw [Cert.KernelIdeal.Sums.interAt_def]
  refine congrArg (Ideal.ofBits .f32 0x00000000#32 + ·) (Finset.sum_congr rfl fun K _ => ?_)
  rw [vol_eq, lab_eq, indSigned_eq_indUnsigned]

theorem vol_table :
    Cert.KernelIdeal.Tail.table (F := Ideal) (Cert.KernelIdeal.Arrays.volArr m c)
      = Cert.ReferenceIdeal.Read.val_main_v11 (F := Ideal) (volArg m c) := by
  funext i
  obtain ⟨q, r, rfl⟩ : ∃ (q : Fin 2) (r : Fin 5), i = ix2 q r := ⟨i 0, i 1, eq_ix2 i⟩
  rw [table_apply, Cert.Dice.Ref.vol_apply]
  unfold Cert.KernelIdeal.Arrays.volArr
  show Cert.KernelIdeal.Sums.volAt m c q r = _
  rw [Cert.KernelIdeal.Sums.volAt_def]
  refine congrArg (Ideal.ofBits .f32 0x00000000#32 + ·) (Finset.sum_congr rfl fun K _ => ?_)
  rw [vol_eq]

theorem count_table :
    Cert.KernelIdeal.Tail.table (F := Ideal) (Cert.KernelIdeal.Arrays.countArr m c)
      = Cert.ReferenceIdeal.Read.val_main_v12 (F := Ideal) (labArg m c) := by
  funext i
  obtain ⟨q, r, rfl⟩ : ∃ (q : Fin 2) (r : Fin 5), i = ix2 q r := ⟨i 0, i 1, eq_ix2 i⟩
  rw [table_apply, Cert.Dice.Ref.count_apply]
  unfold Cert.KernelIdeal.Arrays.countArr
  show Cert.KernelIdeal.Sums.countAt m c q r = _
  rw [Cert.KernelIdeal.Sums.countAt_def]
  refine congrArg (Ideal.ofBits .f32 0x00000000#32 + ·) (Finset.sum_congr rfl fun K _ => ?_)
  rw [lab_eq, indSigned_eq_indUnsigned]

/-- So the kernel's result is the reference's result term of the same arguments. -/
theorem result_eq :
    Cert.KernelIdeal.Run.result m c = Cert.ReferenceIdeal.Read.val_main_v23 (F := Ideal) (volArg m c) (labArg m c) := by
  rw [Cert.Dice.Ref.result_eq, ← inter_table, ← vol_table, ← count_table]
  rfl

end Cert.Dice.Bridge

end
-- ==== Proof.lean ====
/-
  A multiclass dice loss: the kernel against its reference, over the extended reals.

  For a volume x of shape [2, 5, 128, 128, 128] (batch element, class, voxel) and integer labels of shape
  [2, 128, 128, 128], both programs compute, for every batch element q and class r, three sums over the 2097152 voxels k
  of the batch element: I = Σ x[q, r, k] · [label[q, k] = r], X = Σ x[q, r, k] and O = Σ [label[q, k] = r]; then the
  score (2·I + ε) / ((X + O) + ε) for each of the ten (q, r), and one minus the mean of the ten scores.

  The reference takes each sum whole. The kernel walks a grid of 2 × 16 points: batch element q and a block of 131072
  voxels. It keeps three running columns (one number per class), restarts them from zero at the first block of a batch
  element, adds each block's partial sums, and at the last block copies the columns into the three result arrays; the
  same closing arithmetic then runs on those. Over the extended reals addition is commutative and associative (also at
  the infinities), so sixteen partial sums of 131072 terms added to zero are the sum of all 2097152 terms added to zero;
  the two programs spell the indicator [label = class] differently but it is the same number; the closing arithmetic is
  one function of the three tables with the same constant words in both programs. Hence the results are equal, for all
  inputs: the finiteness of the inputs is never used.

  The three frames are the generated ones (the reference's is its generated run with the result dropped); the ideal pass
  rewrote nothing, so the idealized kernel is the kernel's own text read at the ideal values.
-/
import proofs.«125857_j56255481643615_1_alg».proof.Defs
import proofs.«125857_j56255481643615_1_alg».proof.Proof.Gen.Kernel
import proofs.«125857_j56255481643615_1_alg».proof.Proof.Gen.Kernel.Frame
import proofs.«125857_j56255481643615_1_alg».proof.Proof.Gen.KernelIdeal
import proofs.«125857_j56255481643615_1_alg».proof.Proof.Gen.KernelIdeal.Frame
import proofs.«125857_j56255481643615_1_alg».proof.Proof.Gen.ReferenceIdeal
import proofs.«125857_j56255481643615_1_alg».proof.Proof.Gen.ReferenceIdeal.Run
import proofs.«125857_j56255481643615_1_alg».proof.Proof.Gen.ReferenceIdeal.Read
import proofs.«125857_j56255481643615_1_alg».proof.Proof.Gen.Pre_finite_inputs
import proofs.«125857_j56255481643615_1_alg».proof.Proof.Bridge

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the arguments, both programs end with the same result: one minus the mean of the ten
    dice scores, the kernel's block-by-block sums being the reference's whole sums. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, (hagree c).1, (hagree c).2]
  exact (Cert.Dice.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
